-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x768 : Shape := ⟨2, ![4096, 768]⟩
abbrev S131072x768 : Shape := ⟨2, ![131072, 768]⟩
abbrev S1536x768 : Shape := ⟨2, ![1536, 768]⟩
abbrev S768 : Shape := ⟨1, ![768]⟩
abbrev S768x1 : Shape := ⟨2, ![768, 1]⟩
abbrev S1 : Shape := ⟨1, ![1]⟩
abbrev S4096x64 : Shape := ⟨2, ![4096, 64]⟩
abbrev S_ : Shape := ⟨0, ![]⟩
abbrev S131072 : Shape := ⟨1, ![131072]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S131072x768 : S_.BroadcastsInDim S131072x768 (![] : Fin 0 → Fin S131072x768.rank)
  reducesTo_S131072x768_S_d0_1 : S131072x768.ReducesTo [0, 1] S_
  bcast_S_S1536x768 : S_.BroadcastsInDim S1536x768 (![] : Fin 0 → Fin S1536x768.rank)
  reducesTo_S1536x768_S_d0_1 : S1536x768.ReducesTo [0, 1] S_
  bcast_S_S768 : S_.BroadcastsInDim S768 (![] : Fin 0 → Fin S768.rank)
  reducesTo_S768_S_d0 : S768.ReducesTo [0] S_
  bcast_S_S768x1 : S_.BroadcastsInDim S768x1 (![] : Fin 0 → Fin S768x1.rank)
  reducesTo_S768x1_S_d0_1 : S768x1.ReducesTo [0, 1] S_
  bcast_S_S1 : S_.BroadcastsInDim S1 (![] : Fin 0 → Fin S1.rank)
  reducesTo_S1_S_d0 : S1.ReducesTo [0] S_
  bcast_S_S4096x64 : S_.BroadcastsInDim S4096x64 (![] : Fin 0 → Fin S4096x64.rank)
  reducesTo_S4096x64_S_d0_1 : S4096x64.ReducesTo [0, 1] S_
  reducesTo_S_S_d : S_.ReducesTo [] S_

variable [Facts]

def fn_part2 {F : FTy → Type} [FloatOps F] (main_arg7 : FVec F S_ .f32) (main_v33 : IVec S_ 1) : IVec S_ 1 :=
  let main_v34 : FVec F S_ .f32 := Host.absf main_arg7
  let main_cst_12 : FVec F S_ .f32 := constant S_ .f32 0x7F800000#32
  let main_v35 : IVec S_ 1 := cmpf .olt main_v34 main_cst_12
  let main_c_13 : IVec S_ 1 := constantI S_ 1 1#1
  let main_v36 : IVec S_ 1 := (fun x v => Host.reduce IntOp.andi x v reducesTo_S_S_d h_S_) main_v35 main_c_13
  let main_v37 : IVec S_ 1 := andi main_v33 main_v36
  main_v37

def fn_part1 {F : FTy → Type} [FloatOps F] (main_arg4 : FVec F S768x1 .f32) (main_arg5 : FVec F S1 .f32) (main_arg6 : FVec F S4096x64 .f32) (main_arg7 : FVec F S_ .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768x1 .f32 := Host.absf main_arg4
  let main_cst_6 : FVec F S_ .f32 := constant S_ .f32 0x7F800000#32
  let main_v20 : FVec F S768x1 .f32 := broadcastInDim S768x1 ![] bcast_S_S768x1 main_cst_6
  let main_v21 : IVec S768x1 1 := cmpf .olt main_v19 main_v20
  let main_c_7 : IVec S_ 1 := constantI S_ 1 1#1
  let main_v22 : IVec S_ 1 := (fun x v => Host.reduce IntOp.andi x v reducesTo_S768x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S4096x64 .f32 := Host.absf main_arg6
  let main_cst_10 : FVec F S_ .f32 := constant S_ .f32 0x7F800000#32
  let main_v30 : FVec F S4096x64 .f32 := broadcastInDim S4096x64 ![] bcast_S_S4096x64 main_cst_10
  let main_v31 : IVec S4096x64 1 := cmpf .olt main_v29 main_v30
  let main_c_11 : IVec S_ 1 := constantI S_ 1 1#1
  let main_v32 : IVec S_ 1 := (fun x v => Host.reduce IntOp.andi x v reducesTo_S4096x64_S_d0_1 h_S_) main_v31 main_c_11
  let main_v33 : IVec S_ 1 := andi main_v28 main_v32
  fn_part2 (F := F) main_arg7 main_v33

def fn {F : FTy → Type} [FloatOps F] (main_arg0 : FVec F S4096x768 .f32) (main_arg1 : FVec F S131072x768 .f32) (main_arg2 : FVec F S1536x768 .f32) (main_arg3 : FVec F S768 .f32) (main_arg4 : FVec F S768x1 .f32) (main_arg5 : FVec F S1 .f32) (main_arg6 : FVec F S4096x64 .f32) (main_arg7 : FVec F S_ .f32) (main_arg8 : IVec S131072 32) (main_arg9 : IVec S131072 32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S131072x768 .f32 := Host.absf main_arg1
  let main_cst_0 : FVec F S_ .f32 := constant S_ .f32 0x7F800000#32
  let main_v5 : FVec F S131072x768 .f32 := broadcastInDim S131072x768 ![] bcast_S_S131072x768 main_cst_0
  let main_v6 : IVec S131072x768 1 := cmpf .olt main_v4 main_v5
  let main_c_1 : IVec S_ 1 := constantI S_ 1 1#1
  let main_v7 : IVec S_ 1 := (fun x v => Host.reduce IntOp.andi x v reducesTo_S131072x768_S_d0_1 h_S_) main_v6 main_c_1
  let main_v8 : IVec S_ 1 := andi main_v3 main_v7
  let main_v9 : FVec F S1536x768 .f32 := Host.absf main_arg2
  let main_cst_2 : FVec F S_ .f32 := constant S_ .f32 0x7F800000#32
  let main_v10 : FVec F S1536x768 .f32 := broadcastInDim S1536x768 ![] bcast_S_S1536x768 main_cst_2
  let main_v11 : IVec S1536x768 1 := cmpf .olt main_v9 main_v10
  let main_c_3 : IVec S_ 1 := constantI S_ 1 1#1
  let main_v12 : IVec S_ 1 := (fun x v => Host.reduce IntOp.andi x v reducesTo_S1536x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_arg6 main_arg7 main_v13 main_v16
-- ==== Kernel.lean ====
abbrev S4096x768 : Shape := ⟨2, ![4096, 768]⟩
abbrev S131072x768 : Shape := ⟨2, ![131072, 768]⟩
abbrev S1536x768 : Shape := ⟨2, ![1536, 768]⟩
abbrev S768 : Shape := ⟨1, ![768]⟩
abbrev S768x1 : Shape := ⟨2, ![768, 1]⟩
abbrev S1 : Shape := ⟨1, ![1]⟩
abbrev S4096x64 : Shape := ⟨2, ![4096, 64]⟩
abbrev S_ : Shape := ⟨0, ![]⟩
abbrev S131072 : Shape := ⟨1, ![131072]⟩
abbrev S131072x1 : Shape := ⟨2, ![131072, 1]⟩
abbrev S131072x1536 : Shape := ⟨2, ![131072, 1536]⟩
abbrev S2048x1536 : Shape := ⟨2, ![2048, 1536]⟩
abbrev S2048x1 : Shape := ⟨2, ![2048, 1]⟩
abbrev S2048x768 : Shape := ⟨2, ![2048, 768]⟩
abbrev S1x768 : Shape := ⟨2, ![1, 768]⟩
abbrev S1x1 : Shape := ⟨2, ![1, 1]⟩
abbrev S131072x2 : Shape := ⟨2, ![131072, 2]⟩
abbrev S4096x1 : Shape := ⟨2, ![4096, 1]⟩
abbrev S4096x65 : Shape := ⟨2, ![4096, 65]⟩

abbrev nBuf : Space → Nat
  | .hbm => 52
  | .vmem => 8
  | .smem => 0
  | _ => 0

abbrev bufTy : (tb : Table) → Fin (tcTables nBuf tb) → BufTy
  | .hbm, ⟨0, _⟩ => ⟨S4096x768, .f32⟩
  | .hbm, ⟨1, _⟩ => ⟨S131072x768, .f32⟩
  | .hbm, ⟨2, _⟩ => ⟨S1536x768, .f32⟩
  | .hbm, ⟨3, _⟩ => ⟨S768, .f32⟩
  | .hbm, ⟨4, _⟩ => ⟨S768x1, .f32⟩
  | .hbm, ⟨5, _⟩ => ⟨S1, .f32⟩
  | .hbm, ⟨6, _⟩ => ⟨S4096x64, .f32⟩
  | .hbm, ⟨7, _⟩ => ⟨S_, .f32⟩
  | .hbm, ⟨8, _⟩ => ⟨S131072, .i32⟩
  | .hbm, ⟨9, _⟩ => ⟨S131072, .i32⟩
  | .hbm, ⟨10, _⟩ => ⟨S_, .i32⟩
  | .hbm, ⟨11, _⟩ => ⟨S131072, .i32⟩
  | .hbm, ⟨12, _⟩ => ⟨S131072, .i1⟩
  | .hbm, ⟨13, _⟩ => ⟨S_, .i32⟩
  | .hbm, ⟨14, _⟩ => ⟨S131072, .i32⟩
  | .hbm, ⟨15, _⟩ => ⟨S131072, .i32⟩
  | .hbm, ⟨16, _⟩ => ⟨S131072, .i32⟩
  | .hbm, ⟨17, _⟩ => ⟨S131072x1, .i32⟩
  | .hbm, ⟨18, _⟩ => ⟨S131072x768, .f32⟩
  | .hbm, ⟨19, _⟩ => ⟨S131072x1536, .f32⟩
  | .hbm, ⟨20, _⟩ => ⟨S131072x1536, .bf16⟩
  | .hbm, ⟨21, _⟩ => ⟨S1536x768, .bf16⟩
  | .hbm, ⟨22, _⟩ => ⟨S768x1, .bf16⟩
  | .hbm, ⟨23, _⟩ => ⟨S131072x1, .f32⟩
  | .hbm, ⟨24, _⟩ => ⟨S131072, .f32⟩
  | .hbm, ⟨25, _⟩ => ⟨S_, .f32⟩
  | .hbm, ⟨26, _⟩ => ⟨S4096x64, .f32⟩
  | .hbm, ⟨27, _⟩ => ⟨S_, .i32⟩
  | .hbm, ⟨28, _⟩ => ⟨S131072, .i32⟩
  | .hbm, ⟨29, _⟩ => ⟨S131072, .i1⟩
  | .hbm, ⟨30, _⟩ => ⟨S_, .i32⟩
  | .hbm, ⟨31, _⟩ => ⟨S131072, .i32⟩
  | .hbm, ⟨32, _⟩ => ⟨S131072, .i32⟩
  | .hbm, ⟨33, _⟩ => ⟨S131072, .i32⟩
  | .hbm, ⟨34, _⟩ => ⟨S_, .i32⟩
  | .hbm, ⟨35, _⟩ => ⟨S131072, .i32⟩
  | .hbm, ⟨36, _⟩ => ⟨S131072, .i1⟩
  | .hbm, ⟨37, _⟩ => ⟨S_, .i32⟩
  | .hbm, ⟨38, _⟩ => ⟨S131072, .i32⟩
  | .hbm, ⟨39, _⟩ => ⟨S131072, .i32⟩
  | .hbm, ⟨40, _⟩ => ⟨S131072, .i32⟩
  | .hbm, ⟨41, _⟩ => ⟨S131072x1, .i32⟩
  | .hbm, ⟨42, _⟩ => ⟨S131072x1, .i32⟩
  | .hbm, ⟨43, _⟩ => ⟨S131072x2, .i32⟩
  | .hbm, ⟨44, _⟩ => ⟨S4096x64, .f32⟩
  | .hbm, ⟨45, _⟩ => ⟨S_, .f32⟩
  | .hbm, ⟨46, _⟩ => ⟨S4096x64, .f32⟩
  | .hbm, ⟨47, _⟩ => ⟨S4096x64, .f32⟩
  | .hbm, ⟨48, _⟩ => ⟨S4096x64, .f32⟩
  | .hbm, ⟨49, _⟩ => ⟨S1x1, .f32⟩
  | .hbm, ⟨50, _⟩ => ⟨S4096x1, .f32⟩
  | .hbm, ⟨51, _⟩ => ⟨S4096x65, .f32⟩
  | .local _ .vmem, ⟨0, _⟩ => ⟨S2048x1536, .bf16⟩
  | .local _ .vmem, ⟨1, _⟩ => ⟨S2048x1536, .bf16⟩
  | .local _ .vmem, ⟨2, _⟩ => ⟨S1536x768, .bf16⟩
  | .local _ .vmem, ⟨3, _⟩ => ⟨S768, .f32⟩
  | .local _ .vmem, ⟨4, _⟩ => ⟨S768x1, .bf16⟩
  | .local _ .vmem, ⟨5, _⟩ => ⟨S1, .f32⟩
  | .local _ .vmem, ⟨6, _⟩ => ⟨S2048x1, .f32⟩
  | .local _ .vmem, ⟨7, _⟩ => ⟨S2048x1, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  concatenates_S131072x768_S131072x768_S131072x1536_d1 : Shape.Concatenates [S131072x768, S131072x768] S131072x1536 1
  bitsLt_bf16_f32 : FTy.bits .bf16 < FTy.bits .f32
  inb_S2048x1536_S2048x1536_0_0 : ∀ a, (![0, 0] : Fin 2 → Nat) a + S2048x1536.size a ≤ S2048x1536.size a
  h_S2048x1536 : 0 < S2048x1536.numel
  shapeCasts_S2048x1536_S2048x1536 : S2048x1536.ShapeCasts S2048x1536
  inb_S1536x768_S1536x768_0_0 : ∀ a, (![0, 0] : Fin 2 → Nat) a + S1536x768.size a ≤ S1536x768.size a
  h_S1536x768 : 0 < S1536x768.numel
  shapeCasts_S1536x768_S1536x768 : S1536x768.ShapeCasts S1536x768
  inb_S768_S768_0 : ∀ a, (![0] : Fin 1 → Nat) a + S768.size a ≤ S768.size a
  h_S768 : 0 < S768.numel
  shapeCasts_S768_S1x768 : S768.ShapeCasts S1x768
  broadcasts_S1x768_S2048x768 : S1x768.Broadcasts S2048x768
  inb_S768x1_S768x1_0_0 : ∀ a, (![0, 0] : Fin 2 → Nat) a + S768x1.size a ≤ S768x1.size a
  h_S768x1 : 0 < S768x1.numel
  shapeCasts_S768x1_S768x1 : S768x1.ShapeCasts S768x1
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S131072x1_S131072 : S131072x1.ShapeCasts S131072
  bcast_S_S4096x64 : S_.BroadcastsInDim S4096x64 (![] : Fin 0 → Fin S4096x64.rank)
  concatenates_S131072x1_S131072x1_S131072x2_d1 : Shape.Concatenates [S131072x1, S131072x1] S131072x2 1
  shapeCasts_S_S1x1 : S_.ShapeCasts S1x1
  bcast_S1x1_S4096x1_0_1 : S1x1.BroadcastsInDim S4096x1 (![0, 1] : Fin 2 → Fin S4096x1.rank)
  concatenates_S4096x64_S4096x1_S4096x65_d1 : Shape.Concatenates [S4096x64, S4096x1] S4096x65 1
  gather_S4096x768_S131072x1_S131072x768_1_0_n_n_0_1_1768_wf : GatherDims.WF S4096x768 S131072x1 S131072x768 [1] [0] [] [0] [] 1 ![1, 768]
  dot_S2048x1536_S1536x768_S2048x768_1_0_0_1_n_n_wf : DotDims.WF S2048x1536 S1536x768 S2048x768 [1] [0] [0] [1] [] []
  dot_S2048x768_S768x1_S2048x1_1_0_0_1_n_n_wf : DotDims.WF S2048x768 S768x1 S2048x1 [1] [0] [0] [1] [] []
  scatter_S4096x64_S131072x2_S131072_n_01_01_1_wf : ScatterDims.WF S4096x64 S131072x2 S131072 [] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1536.size a ≤ S131072x1536.size a
  hwx0_0 : ∀ i : grid0.Coords, EltTy.bits .bf16 = 32 ∨ (Rect.block (s := S131072x1536) S2048x1536.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x768.size a ≤ S1536x768.size a
  hwx0_1 : ∀ i : grid0.Coords, EltTy.bits .bf16 = 32 ∨ (Rect.block (s := S1536x768) S1536x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x1.size a ≤ S768x1.size a
  hwx0_3 : ∀ i : grid0.Coords, EltTy.bits .bf16 = 32 ∨ (Rect.block (s := S768x1) S768x1.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S131072x1.size a
  hwx0_5 : ∀ i : grid0.Coords, EltTy.bits .f32 = 32 ∨ (Rect.block (s := S131072x1) S2048x1.size (cc0_transform_5 i) (hinb0_5 i)).WholeWords (EltTy.packing .f32)

variable [Facts₀]

def gather_S4096x768_S131072x1_S131072x768_1_0_n_n_0_1_1768 : GatherDims S4096x768 S131072x1 S131072x768 where
  offsetDims := [1]
  collapsedSliceDims := [0]
  operandBatchingDims := []
  startIndicesBatchingDims := []
  startIndexMap := [0]
  indexVectorDim := 1
  sliceSizes := ![1, 768]
  wf := gather_S4096x768_S131072x1_S131072x768_1_0_n_n_0_1_1768_wf
def dot_S2048x1536_S1536x768_S2048x768_1_0_0_1_n_n : DotDims S2048x1536 S1536x768 S2048x768 where
  lhsContracting := [1]
  rhsContracting := [0]
  lhsNonContracting := [0]
  rhsNonContracting := [1]
  lhsBatch := []
  rhsBatch := []
  wf := dot_S2048x1536_S1536x768_S2048x768_1_0_0_1_n_n_wf
def dot_S2048x768_S768x1_S2048x1_1_0_0_1_n_n : DotDims S2048x768 S768x1 S2048x1 where
  lhsContracting := [1]
  rhsContracting := [0]
  lhsNonContracting := [0]
  rhsNonContracting := [1]
  lhsBatch := []
  rhsBatch := []
  wf := dot_S2048x768_S768x1_S2048x1_1_0_0_1_n_n_wf
def scatter_S4096x64_S131072x2_S131072_n_01_01_1 : ScatterDims S4096x64 S131072x2 S131072 where
  updateWindowDims := []
  insertedWindowDims := [0, 1]
  scatterDimsToOperandDims := [0, 1]
  indexVectorDim := 1
  wf := scatter_S4096x64_S131072x2_S131072_n_01_01_1_wf

abbrev win0_0 : Pipeline.Window sig grid0 :=
  Pipeline.Window.ofSpec (Memref.whole main_v8) S2048x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1536x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S768x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S2048x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x768 : Shape := ⟨2, ![4096, 768]⟩
abbrev S131072x768 : Shape := ⟨2, ![131072, 768]⟩
abbrev S1536x768 : Shape := ⟨2, ![1536, 768]⟩
abbrev S768 : Shape := ⟨1, ![768]⟩
abbrev S768x1 : Shape := ⟨2, ![768, 1]⟩
abbrev S1 : Shape := ⟨1, ![1]⟩
abbrev S4096x64 : Shape := ⟨2, ![4096, 64]⟩
abbrev S_ : Shape := ⟨0, ![]⟩
abbrev S131072 : Shape := ⟨1, ![131072]⟩
abbrev S131072x1 : Shape := ⟨2, ![131072, 1]⟩
abbrev S131072x1536 : Shape := ⟨2, ![131072, 1536]⟩
abbrev S1x768 : Shape := ⟨2, ![1, 768]⟩
abbrev S1x1 : Shape := ⟨2, ![1, 1]⟩
abbrev S131072x2 : Shape := ⟨2, ![131072, 2]⟩
abbrev S4096x1 : Shape := ⟨2, ![4096, 1]⟩
abbrev S4096x65 : Shape := ⟨2, ![4096, 65]⟩

abbrev nBuf : Space → Nat
  | .hbm => 59
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S131072x768, .f32⟩
  | .hbm, ⟨2, _⟩ => ⟨S1536x768, .f32⟩
  | .hbm, ⟨3, _⟩ => ⟨S768, .f32⟩
  | .hbm, ⟨4, _⟩ => ⟨S768x1, .f32⟩
  | .hbm, ⟨5, _⟩ => ⟨S1, .f32⟩
  | .hbm, ⟨6, _⟩ => ⟨S4096x64, .f32⟩
  | .hbm, ⟨7, _⟩ => ⟨S_, .f32⟩
  | .hbm, ⟨8, _⟩ => ⟨S131072, .i32⟩
  | .hbm, ⟨9, _⟩ => ⟨S131072, .i32⟩
  | .hbm, ⟨10, _⟩ => ⟨S_, .i32⟩
  | .hbm, ⟨11, _⟩ => ⟨S131072, .i32⟩
  | .hbm, ⟨12, _⟩ => ⟨S131072, .i1⟩
  | .hbm, ⟨13, _⟩ => ⟨S_, .i32⟩
  | .hbm, ⟨14, _⟩ => ⟨S131072, .i32⟩
  | .hbm, ⟨15, _⟩ => ⟨S131072, .i32⟩
  | .hbm, ⟨16, _⟩ => ⟨S131072, .i32⟩
  | .hbm, ⟨17, _⟩ => ⟨S131072x1, .i32⟩
  | .hbm, ⟨18, _⟩ => ⟨S131072x768, .f32⟩
  | .hbm, ⟨19, _⟩ => ⟨S131072x1536, .f32⟩
  | .hbm, ⟨20, _⟩ => ⟨S131072x768, .f32⟩
  | .hbm, ⟨21, _⟩ => ⟨S1x768, .f32⟩
  | .hbm, ⟨22, _⟩ => ⟨S131072x768, .f32⟩
  | .hbm, ⟨23, _⟩ => ⟨S131072x768, .f32⟩
  | .hbm, ⟨24, _⟩ => ⟨S_, .f32⟩
  | .hbm, ⟨25, _⟩ => ⟨S131072x768, .f32⟩
  | .hbm, ⟨26, _⟩ => ⟨S131072x768, .f32⟩
  | .hbm, ⟨27, _⟩ => ⟨S131072x1, .f32⟩
  | .hbm, ⟨28, _⟩ => ⟨S1x1, .f32⟩
  | .hbm, ⟨29, _⟩ => ⟨S131072x1, .f32⟩
  | .hbm, ⟨30, _⟩ => ⟨S131072x1, .f32⟩
  | .hbm, ⟨31, _⟩ => ⟨S131072, .f32⟩
  | .hbm, ⟨32, _⟩ => ⟨S_, .f32⟩
  | .hbm, ⟨33, _⟩ => ⟨S4096x64, .f32⟩
  | .hbm, ⟨34, _⟩ => ⟨S_, .i32⟩
  | .hbm, ⟨35, _⟩ => ⟨S131072, .i32⟩
  | .hbm, ⟨36, _⟩ => ⟨S131072, .i1⟩
  | .hbm, ⟨37, _⟩ => ⟨S_, .i32⟩
  | .hbm, ⟨38, _⟩ => ⟨S131072, .i32⟩
  | .hbm, ⟨39, _⟩ => ⟨S131072, .i32⟩
  | .hbm, ⟨40, _⟩ => ⟨S131072, .i32⟩
  | .hbm, ⟨41, _⟩ => ⟨S_, .i32⟩
  | .hbm, ⟨42, _⟩ => ⟨S131072, .i32⟩
  | .hbm, ⟨43, _⟩ => ⟨S131072, .i1⟩
  | .hbm, ⟨44, _⟩ => ⟨S_, .i32⟩
  | .hbm, ⟨45, _⟩ => ⟨S131072, .i32⟩
  | .hbm, ⟨46, _⟩ => ⟨S131072, .i32⟩
  | .hbm, ⟨47, _⟩ => ⟨S131072, .i32⟩
  | .hbm, ⟨48, _⟩ => ⟨S131072x1, .i32⟩
  | .hbm, ⟨49, _⟩ => ⟨S131072x1, .i32⟩
  | .hbm, ⟨50, _⟩ => ⟨S131072x2, .i32⟩
  | .hbm, ⟨51, _⟩ => ⟨S4096x64, .f32⟩
  | .hbm, ⟨52, _⟩ => ⟨S_, .f32⟩
  | .hbm, ⟨53, _⟩ => ⟨S4096x64, .f32⟩
  | .hbm, ⟨54, _⟩ => ⟨S4096x64, .f32⟩
  | .hbm, ⟨55, _⟩ => ⟨S4096x64, .f32⟩
  | .hbm, ⟨56, _⟩ => ⟨S1x1, .f32⟩
  | .hbm, ⟨57, _⟩ => ⟨S4096x1, .f32⟩
  | .hbm, ⟨58, _⟩ => ⟨S4096x65, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call0_cst : Ref sig .tc := ⟨.hbm, 24, rfl⟩
abbrev main_call0_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_c_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_3 : Ref sig .tc := ⟨.hbm, 41, rfl⟩
abbrev main_v24 : Ref sig .tc := ⟨.hbm, 42, rfl⟩
abbrev main_v25 : Ref sig .tc := ⟨.hbm, 43, rfl⟩
abbrev main_c_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  concatenates_S131072x768_S131072x768_S131072x1536_d1 : Shape.Concatenates [S131072x768, S131072x768] S131072x1536 1
  bcast_S768_S1x768_1 : S768.BroadcastsInDim S1x768 (![1] : Fin 1 → Fin S1x768.rank)
  bcast_S1x768_S131072x768_0_1 : S1x768.BroadcastsInDim S131072x768 (![0, 1] : Fin 2 → Fin S131072x768.rank)
  bcast_S_S131072x768 : S_.BroadcastsInDim S131072x768 (![] : Fin 0 → Fin S131072x768.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  shapeCasts_S131072x1_S131072 : S131072x1.ShapeCasts S131072
  bcast_S_S4096x64 : S_.BroadcastsInDim S4096x64 (![] : Fin 0 → Fin S4096x64.rank)
  concatenates_S131072x1_S131072x1_S131072x2_d1 : Shape.Concatenates [S131072x1, S131072x1] S131072x2 1
  shapeCasts_S_S1x1 : S_.ShapeCasts S1x1
  bcast_S1x1_S4096x1_0_1 : S1x1.BroadcastsInDim S4096x1 (![0, 1] : Fin 2 → Fin S4096x1.rank)
  concatenates_S4096x64_S4096x1_S4096x65_d1 : Shape.Concatenates [S4096x64, S4096x1] S4096x65 1
  gather_S4096x768_S131072x1_S131072x768_1_0_n_n_0_1_1768_wf : GatherDims.WF S4096x768 S131072x1 S131072x768 [1] [0] [] [0] [] 1 ![1, 768]
  dot_S131072x1536_S1536x768_S131072x768_1_0_0_1_n_n_wf : DotDims.WF S131072x1536 S1536x768 S131072x768 [1] [0] [0] [1] [] []
  dot_S131072x768_S768x1_S131072x1_1_0_0_1_n_n_wf : DotDims.WF S131072x768 S768x1 S131072x1 [1] [0] [0] [1] [] []
  scatter_S4096x64_S131072x2_S131072_n_01_01_1_wf : ScatterDims.WF S4096x64 S131072x2 S131072 [] [0, 1] [0, 1] 1

variable [Facts₀]

def gather_S4096x768_S131072x1_S131072x768_1_0_n_n_0_1_1768 : GatherDims S4096x768 S131072x1 S131072x768 where
  offsetDims := [1]
  collapsedSliceDims := [0]
  operandBatchingDims := []
  startIndicesBatchingDims := []
  startIndexMap := [0]
  indexVectorDim := 1
  sliceSizes := ![1, 768]
  wf := gather_S4096x768_S131072x1_S131072x768_1_0_n_n_0_1_1768_wf
def dot_S131072x1536_S1536x768_S131072x768_1_0_0_1_n_n : DotDims S131072x1536 S1536x768 S131072x768 where
  lhsContracting := [1]
  rhsContracting := [0]
  lhsNonContracting := [0]
  rhsNonContracting := [1]
  lhsBatch := []
  rhsBatch := []
  wf := dot_S131072x1536_S1536x768_S131072x768_1_0_0_1_n_n_wf
def dot_S131072x768_S768x1_S131072x1_1_0_0_1_n_n : DotDims S131072x768 S768x1 S131072x1 where
  lhsContracting := [1]
  rhsContracting := [0]
  lhsNonContracting := [0]
  rhsNonContracting := [1]
  lhsBatch := []
  rhsBatch := []
  wf := dot_S131072x768_S768x1_S131072x1_1_0_0_1_n_n_wf
def scatter_S4096x64_S131072x2_S131072_n_01_01_1 : ScatterDims S4096x64 S131072x2 S131072 where
  updateWindowDims := []
  insertedWindowDims := [0, 1]
  scatterDimsToOperandDims := [0, 1]
  indexVectorDim := 1
  wf := scatter_S4096x64_S131072x2_S131072_n_01_01_1_wf

class Facts : Prop extends Facts₀ where

variable [Facts]
-- ==== Proof.Score.lean ====
/-
  The score of one mention–candidate pair, as one function of the arrays.

  A pair is a row of 1536 features (the mention's 768 followed by the candidate's 768).  The small network maps it to
  one number: a hidden layer of 768 units, unit j being max(Σ_k x_k · W1[k, j] + b1[j], 0), then the output
  Σ_j hidden_j · W2[j, 0] + b2[0].  Everything is on the extended reals, where a sum is a sum whatever its order and a
  change of float format is the identity, so this one expression is what both programs compute for a pair.  The zero of
  the rectifier is kept as the word it is printed with; nothing here needs its value.
-/
import Idealize.ShloMosaic.Lib.ValueIdx
import Idealize.ShloMosaic.PureOps.Ideal

noncomputable section

open scoped BigOperators

namespace Cert.PairScore

open Idealize.ShloMosaic Idealize.ShloMosaic.ValueIdx

/-- The score of a pair from its row of 1536 features `x`, the two weight matrices and the two biases. -/
def rowScore (x : Fin 1536 → EReal) (W1 : (⟨2, ![1536, 768]⟩ : Shape).Idx → EReal)
    (b1 : (⟨1, ![768]⟩ : Shape).Idx → EReal) (W2 : (⟨2, ![768, 1]⟩ : Shape).Idx → EReal)
    (b2 : (⟨1, ![1]⟩ : Shape).Idx → EReal) : EReal :=
  (∑ j : Fin 768, max ((∑ k : Fin 1536, x k * W1 (ix2 k j)) + b1 (ix1 j)) (Ideal.ofBits .f32 0x00000000#32 : EReal)
      * W2 (ix2 j (0 : Fin 1)))
    + b2 (ix1 (0 : Fin 1))

/-- The row of an index of a column array, as a number below the literal extent. -/
abbrev rowOf {n : Nat} (i : (⟨2, ![n, 1]⟩ : Shape).Idx) : Fin n := ⟨(i 0).val, idx2_lt0 i⟩

/-- The column of all 131072 pair scores: entry (t, 0) is the score of row t of the feature matrix `X`. -/
def scoreCol (X : (⟨2, ![131072, 1536]⟩ : Shape).Idx → EReal) (W1 : (⟨2, ![1536, 768]⟩ : Shape).Idx → EReal)
    (b1 : (⟨1, ![768]⟩ : Shape).Idx → EReal) (W2 : (⟨2, ![768, 1]⟩ : Shape).Idx → EReal)
    (b2 : (⟨1, ![1]⟩ : Shape).Idx → EReal) : (⟨2, ![131072, 1]⟩ : Shape).Idx → EReal :=
  fun i => rowScore (fun k => X (ix2 (rowOf i) k)) W1 b1 W2 b2

/-- The score depends on the feature row, the weights and the biases only through their values. -/
theorem rowScore_congr {x x' : Fin 1536 → EReal} {W1 W1' : (⟨2, ![1536, 768]⟩ : Shape).Idx → EReal}
    {b1 b1' : (⟨1, ![768]⟩ : Shape).Idx → EReal} {W2 W2' : (⟨2, ![768, 1]⟩ : Shape).Idx → EReal}
    {b2 b2' : (⟨1, ![1]⟩ : Shape).Idx → EReal} (hx : x = x') (h1 : W1 = W1') (hb1 : b1 = b1') (h2 : W2 = W2')
    (hb2 : b2 = b2') : rowScore x W1 b1 W2 b2 = rowScore x' W1' b1' W2' b2' := by
  subst hx h1 hb1 h2 hb2; rfl

/-- The column of scores depends on its five arrays only through their values. -/
theorem scoreCol_congr {X X' : (⟨2, ![131072, 1536]⟩ : Shape).Idx → EReal} {W1 W1' : (⟨2, ![1536, 768]⟩ : Shape).Idx → EReal}
    {b1 b1' : (⟨1, ![768]⟩ : Shape).Idx → EReal} {W2 W2' : (⟨2, ![768, 1]⟩ : Shape).Idx → EReal}
    {b2 b2' : (⟨1, ![1]⟩ : Shape).Idx → EReal} (hX : X = X') (h1 : W1 = W1') (hb1 : b1 = b1') (h2 : W2 = W2')
    (hb2 : b2 = b2') : scoreCol X W1 b1 W2 b2 = scoreCol X' W1' b1' W2' b2' := by
  subst hX h1 hb1 h2 hb2; rfl

end Cert.PairScore

end
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.KernelPayload.lean ====
/-
  What the kernel body stores, read at one entry.

  The body loads a block of 2048 feature rows, the two weight matrices and the two biases, and stores one column of
  2048 numbers.  Entry (r, 0) of that column is the pair score of row r of the block: the first matrix product into a
  zero accumulator is the sum over the 1536 features, the bias row is repeated down the 2048 rows, the rectifier is the
  maximum with the zero word, the change to the narrow float format is the identity on the extended reals, the second
  matrix product is the sum over the 768 hidden units, and the one-entry bias is repeated down the column.
-/
import proofs.«123617_j89232240542409_1_alg».proof.Proof.Gen.KernelIdeal.Skeleton
import proofs.«123617_j89232240542409_1_alg».proof.Proof.Score
import proofs.«123617_j89232240542409_1_alg».proof.Proof.LibPlainMatmul
import Idealize.ShloMosaic.Lib.Pipeline.Value
import Idealize.ShloMosaic.Lib.ValueLayout
import Idealize.ShloMosaic.Lib.ValueIdx

noncomputable section

open scoped BigOperators

namespace Cert.KernelIdeal.Score

open Cert.KernelIdeal Cert.KernelIdeal.Gen Idealize.ShloMosaic Idealize.ShloMosaic.ValueIdx Cert.PairScore

/-- Hidden unit j of row r of a block: the rows times the first weight matrix, plus the bias row repeated down the
    block, rectified against `z`, is the maximum of `z` and the sum over the 1536 features plus the unit's bias. -/
theorem rectified_apply {φ₁ φ₂ : FTy} (l : FVec Ideal S2048x1536 φ₁) (w : FVec Ideal S1536x768 φ₂)
    (b : FVec Ideal S768 .f32) (z : Ideal .f32) (r : Fin 2048) (j : Fin 768) :
    (maximumf
        (addf (matmul dot_S2048x1536_S1536x768_S2048x768_1_0_0_1_n_n none l w (constant S2048x768 .f32 0x00000000#32))
          (broadcastTo S2048x768 (shapeCast S1x768 b shapeCasts_S768_S1x768) broadcasts_S1x768_S2048x768))
        (broadcast S2048x768 z) : FVec Ideal S2048x768 .f32) (ix2 r j)
      = max ((∑ k : Fin 1536, l (ix2 r k) * w (ix2 k j)) + b (ix1 j)) z := by
  rw [maximumf_apply, addf_apply, broadcast_apply,
    PlainMatmul.matmul_zero_apply dot_S2048x1536_S1536x768_S2048x768_1_0_0_1_n_n rfl rfl rfl rfl rfl rfl none l w r j,
    broadcastTo_1b_ab_apply, shapeCast_a_1a_apply]

/-- Entry (r, 0) of the stored column is the pair score of row r of the loaded block. -/
theorem pay_apply (x0 : Vec Ideal S2048x1536 .bf16) (x1 : Vec Ideal S1536x768 .bf16) (x2 : Vec Ideal S768 .f32)
    (x3 : Vec Ideal S768x1 .bf16) (x4 : Vec Ideal S1 .f32) (r : Fin 2048) (u : Fin 1) :
    k0_pay1 (F := Ideal) x0 x1 x2 x3 x4 (ix2 r u) = rowScore (fun k => x0 (ix2 r k)) x1 x2 x3 x4 := by
  obtain rfl : u = 0 := Fin.ext (by omega)
  unfold k0_pay1
  rw [addf_apply,
    PlainMatmul.matmul_zero_apply dot_S2048x768_S768x1_S2048x1_1_0_0_1_n_n rfl rfl rfl rfl rfl rfl none _ _ r 0,
    broadcastTo_1b_ab_apply, shapeCast_a_1a_apply, shapeCast_self]
  unfold rowScore
  refine congrArg (· + x4 (ix1 (0 : Fin 1))) (Finset.sum_congr rfl fun j _ => ?_)
  rw [truncf_apply, shapeCast_self, shapeCast_self, rectified_apply]
  rfl

end Cert.KernelIdeal.Score

end
-- ==== Proof.KernelBlocks.lean ====
/-
  The kernel's output array after the grid, as one function of the arrays the region finds.

  The grid has 64 points.  Point t reads rows 2048·t … 2048·t + 2047 of the feature matrix and the whole of the two
  weight matrices and the two biases, and writes rows 2048·t … 2048·t + 2047 of the one-column output.  What it writes
  at row r of its block is the pair score of row 2048·t + r of the feature matrix, so the 64 blocks, which tile the
  131072 rows, leave the column of all pair scores.
-/
import proofs.«123617_j89232240542409_1_alg».proof.Proof.Gen.KernelIdeal.Frame
import proofs.«123617_j89232240542409_1_alg».proof.Proof.KernelPayload
import Idealize.ShloMosaic.Lib.Pipeline.Value

noncomputable section

open scoped BigOperators

namespace Cert.KernelIdeal.Score

open Cert.KernelIdeal Cert.KernelIdeal.Gen Idealize.ShloMosaic Idealize.ShloMosaic.TcCoe Idealize.SL.Sem
open Idealize.ShloMosaic.ValueIdx Cert.PairScore
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-- The block each window has at point t, decided over the 64 points: the feature window and the output window are at
    block row t, the weights and biases at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row r of the feature block at point t is row 2048·t + r of the feature matrix. -/
theorem iblk0_apply (c : Dev nD) (t : Fin cfg0.N) (r : Fin 2048) (k : Fin 1536) (q : Fin 131072)
    (hq : q.val = t.val * 2048 + r.val) :
    (iblk m c 0 t : Vec Ideal S2048x1536 .bf16) (ix2 r k) = (V m c main_v8 : S131072x1536.Idx → EReal) (ix2 q k) := by
  obtain ⟨e0, e1, -⟩ := idx_facts t
  unfold iblk
  rw [View.read_apply]
  show V m c main_v8 _ = V m c main_v8 _
  congr 1
  funext a
  apply Fin.ext
  match a with
  | ⟨0, _⟩ => show win0_0.index t (0 : Fin 2) * 2048 + 1 * r.val = q.val; rw [e0, hq]; omega
  | ⟨1, _⟩ => show win0_0.index t (1 : Fin 2) * 1536 + 1 * k.val = k.val; rw [e1]; omega

/-- The first weight matrix's block is the whole matrix, at every point. -/
theorem iblk1_eq (c : Dev nD) (t : Fin cfg0.N) :
    (iblk m c 1 t : Vec Ideal S1536x768 .bf16) = (V m c main_v9 : S1536x768.Idx → EReal) := by
  obtain ⟨-, -, e0, e1, -⟩ := idx_facts t
  funext y
  unfold iblk
  rw [View.read_apply]
  show V m c main_v9 _ = V m c main_v9 y
  congr 1
  funext a
  apply Fin.ext
  match a with
  | ⟨0, _⟩ => show win0_1.index t (0 : Fin 2) * 1536 + 1 * (y 0).val = (y 0).val; rw [e0]; omega
  | ⟨1, _⟩ => show win0_1.index t (1 : Fin 2) * 768 + 1 * (y 1).val = (y 1).val; rw [e1]; omega

/-- The first bias's block is the whole bias. -/
theorem iblk2_eq (c : Dev nD) (t : Fin cfg0.N) :
    (iblk m c 2 t : Vec Ideal S768 .f32) = (V m c main_arg3 : S768.Idx → EReal) := by
  obtain ⟨-, -, -, -, e0, -⟩ := idx_facts t
  funext y
  unfold iblk
  rw [View.read_apply]
  show V m c main_arg3 _ = V m c main_arg3 y
  congr 1
  funext a
  apply Fin.ext
  match a with
  | ⟨0, _⟩ => show win0_2.index t (0 : Fin 1) * 768 + 1 * (y 0).val = (y 0).val; rw [e0]; omega

/-- The second weight matrix's block is the whole matrix. -/
theorem iblk3_eq (c : Dev nD) (t : Fin cfg0.N) :
    (iblk m c 3 t : Vec Ideal S768x1 .bf16) = (V m c main_v10 : S768x1.Idx → EReal) := by
  obtain ⟨-, -, -, -, -, e0, e1, -⟩ := idx_facts t
  funext y
  unfold iblk
  rw [View.read_apply]
  show V m c main_v10 _ = V m c main_v10 y
  congr 1
  funext a
  apply Fin.ext
  match a with
  | ⟨0, _⟩ => show win0_3.index t (0 : Fin 2) * 768 + 1 * (y 0).val = (y 0).val; rw [e0]; omega
  | ⟨1, _⟩ => show win0_3.index t (1 : Fin 2) * 1 + 1 * (y 1).val = (y 1).val; rw [e1]; omega

/-- The second bias's block is the whole one-entry bias. -/
theorem iblk4_eq (c : Dev nD) (t : Fin cfg0.N) :
    (iblk m c 4 t : Vec Ideal S1 .f32) = (V m c main_arg5 : S1.Idx → EReal) := by
  obtain ⟨-, -, -, -, -, -, -, e0, -⟩ := idx_facts t
  funext y
  unfold iblk
  rw [View.read_apply]
  show V m c main_arg5 _ = V m c main_arg5 y
  congr 1
  funext a
  apply Fin.ext
  match a with
  | ⟨0, _⟩ => show win0_4.index t (0 : Fin 1) * 1 + 1 * (y 0).val = (y 0).val; rw [e0]; omega

/-- The column of pair scores of the arrays as the region finds them. -/
abbrev scores (c : Dev nD) : S131072x1.Idx → EReal :=
  scoreCol (V m c main_v8) (V m c main_v9) (V m c main_arg3) (V m c main_v10) (V m c main_arg5)

/-- What point t writes back is block t of the column of pair scores. -/
theorem flushed5_eq (c : Dev nD) (t : Fin cfg0.N) :
    (dats m 0 c).flushed 5 t = ((cfg0.win 5).blk t).view.read (Elt Ideal) (scores m c) := by
  show (cfg0.win 5).cut (grid0.coords t) ((dats m 0 c).after 5 t) = _
  rw [after0_5]
  unfold out0_5
  rw [View.canon_unit_zero hz2]
  simp only [View.ld_unit_zero (S := S2048x1536) hz2, View.ld_unit_zero (S := S1536x768) hz2,
    View.ld_unit_zero (S := S768) hz1, View.ld_unit_zero (S := S768x1) hz2, View.ld_unit_zero (S := S1) hz1]
  obtain ⟨-, -, -, -, -, -, -, -, e0, e1⟩ := idx_facts t
  funext j
  obtain ⟨r, u, rfl⟩ : ∃ (r : Fin 2048) (u : Fin 1), j = ix2 r u := ⟨j 0, j 1, eq_ix2 j⟩
  rw [View.read_apply]
  show k0_pay1 (F := Ideal) (iblk m c 0 t) (iblk m c 1 t) (iblk m c 2 t) (iblk m c 3 t) (iblk m c 4 t) (ix2 r u) = _
  refine (pay_apply (iblk m c 0 t) (iblk m c 1 t) (iblk m c 2 t) (iblk m c 3 t) (iblk m c 4 t) r u).trans ?_
  unfold scores scoreCol
  refine rowScore_congr (funext fun k => iblk0_apply m c t r k _ ?_) (iblk1_eq m c t) (iblk2_eq m c t) (iblk3_eq m c t)
    (iblk4_eq m c t)
  show win0_5.index t (0 : Fin 2) * 2048 + 1 * r.val = t.val * 2048 + r.val
  rw [e0]; omega

/-- An index of the output array is in point t's block iff each coordinate is in the block's range on its axis. -/
theorem mem_blk5 (t : Fin cfg0.N) (i : S131072x1.Idx) :
    i ∈ ((cfg0.win 5).blk t).view.set ↔ ∀ a : Fin 2, win0_5.index t a * S2048x1.size a ≤ (i a).val
      ∧ (i a).val < win0_5.index t a * S2048x1.size a + S2048x1.size a := by
  show i ∈ ((View.whole main_v11).slice (win0_5.rect t)).set ↔ _
  rw [View.set_slice_whole, Rect.mem_set_unit]
  exact Iff.rfl

/-- Row q of the output array is in the block of point q / 2048. -/
theorem cover5 (i : S131072x1.Idx) :
    ∃ t : Fin cfg0.N, (cfg0.win 5).flush t = true ∧ i ∈ ((cfg0.win 5).blk t).view.set := by
  have hi0 : (i 0).val < 131072 := (i 0).isLt
  have hi1 : (i 1).val < 1 := (i 1).isLt
  have hN : cfg0.N = 64 := N_0
  have ht : (i 0).val / 2048 < cfg0.N := by rw [hN]; omega
  obtain ⟨-, -, -, -, -, -, -, -, e0, e1⟩ := idx_facts ⟨(i 0).val / 2048, ht⟩
  refine ⟨⟨(i 0).val / 2048, ht⟩, flush0_5 _, ?_⟩
  rw [mem_blk5]
  intro a
  match a with
  | ⟨0, _⟩ =>
    show win0_5.index ⟨(i 0).val / 2048, ht⟩ (0 : Fin 2) * 2048 ≤ (i 0).val
      ∧ (i 0).val < win0_5.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win0_5.index ⟨(i 0).val / 2048, ht⟩ (1 : Fin 2) * 1 ≤ (i 1).val
      ∧ (i 1).val < win0_5.index ⟨(i 0).val / 2048, ht⟩ (1 : Fin 2) * 1 + 1
    rw [e1]; omega

/-- After the grid the output array holds the column of pair scores. -/
theorem final5 (c : Dev nD) : (dats m 0 c).arrAt 5 cfg0.N = scores m c :=
  (dats m 0 c).arrAt_eq_of_cover 5 (scores m c) (fun t _ => flushed5_eq m c t) cover5

end Cert.KernelIdeal.Score

end
-- ==== Proof.HostParts.lean ====
/-
  The host operations both programs share, as functions of the arrays.

  Before the network: the mention index of each pair (a negative index counted from the end) selects a row of the
  mention embeddings, and that row is joined with the pair's candidate embedding into a row of 1536 features.  After the
  network: the column of pair scores is flattened and written into a zero 4096 × 64 matrix at (mention, column) of each
  pair, half the prior is added, and the bias column is appended.  Both programs spell these operations alike, each over
  its own dimension records and side conditions; stated once over arbitrary records, the two spellings are instances of
  one function and never have to be opened.
-/
import Idealize.ShloMosaic.PureOps.Ideal
import Idealize.ShloMosaic.PureOps.ShapeOps

noncomputable section

namespace Cert.PairScore

open Idealize.ShloMosaic

local notation "Sc" => (⟨0, ![]⟩ : Shape)
local notation "ST" => (⟨1, ![131072]⟩ : Shape)
local notation "STx1" => (⟨2, ![131072, 1]⟩ : Shape)
local notation "STx2" => (⟨2, ![131072, 2]⟩ : Shape)
local notation "SNxK" => (⟨2, ![4096, 64]⟩ : Shape)
local notation "SNx1" => (⟨2, ![4096, 1]⟩ : Shape)
local notation "SNxK1" => (⟨2, ![4096, 65]⟩ : Shape)
local notation "S1x1" => (⟨2, ![1, 1]⟩ : Shape)
local notation "SNxH" => (⟨2, ![4096, 768]⟩ : Shape)
local notation "STxH" => (⟨2, ![131072, 768]⟩ : Shape)
local notation "STx2H" => (⟨2, ![131072, 1536]⟩ : Shape)

/-- An index vector with its negative entries counted from the end of an axis of extent `n`. -/
def wrapped (hbi : Shape.BroadcastsInDim Sc ST (![] : Fin 0 → Fin (ST).rank)) (n : BitVec 32) (x : IVec ST 32) :
    IVec ST 32 :=
  select (cmpi .slt x (broadcastInDim ST ![] hbi (constantI Sc 32 0#32)))
    (addi x (broadcastInDim ST ![] hbi (constantI Sc 32 n))) x

/-- The feature matrix: row t is the mention embedding its index selects followed by the candidate embedding of pair t. -/
def features (gd : GatherDims SNxH STx1 STxH) (hbi : Shape.BroadcastsInDim Sc ST (![] : Fin 0 → Fin (ST).rank))
    (hcol : Shape.BroadcastsInDim ST STx1 (![0] : Fin 1 → Fin (STx1).rank))
    (hcat : Shape.Concatenates [STxH, STxH] STx2H 1)
    (x0 : FVec Ideal SNxH .f32) (x1 : FVec Ideal STxH .f32) (x8 : IVec ST 32) : FVec Ideal STx2H .f32 :=
  concatenate STx2H 1
    [⟨STxH, Host.gather gd x0 (broadcastInDim STx1 ![0] hcol (wrapped hbi 4096#32 x8))⟩, ⟨STxH, x1⟩] hcat

/-- The result matrix from the column of pair scores: scattered to (mention, column), plus half the prior, with the
    bias column appended. -/
def padded (sd : ScatterDims SNxK STx2 ST) (hb0 : Shape.BroadcastsInDim Sc SNxK (![] : Fin 0 → Fin (SNxK).rank))
    (hbi : Shape.BroadcastsInDim Sc ST (![] : Fin 0 → Fin (ST).rank))
    (hcol : Shape.BroadcastsInDim ST STx1 (![0] : Fin 1 → Fin (STx1).rank))
    (hcat2 : Shape.Concatenates [STx1, STx1] STx2 1) (hflat : Shape.ShapeCasts STx1 ST)
    (h11 : Shape.ShapeCasts Sc S1x1) (hb11 : Shape.BroadcastsInDim S1x1 SNx1 (![0, 1] : Fin 2 → Fin (SNx1).rank))
    (hcat : Shape.Concatenates [SNxK, SNx1] SNxK1 1)
    (ps : FVec Ideal STx1 .f32) (x6 : FVec Ideal SNxK .f32) (x7 : FVec Ideal Sc .f32) (x8 x9 : IVec ST 32) :
    FVec Ideal SNxK1 .f32 :=
  concatenate SNxK1 1
    [⟨SNxK, addf
        (Host.scatter sd (fun _ b => b) (broadcastInDim SNxK ![] hb0 (constant (F := Ideal) Sc .f32 0x00000000#32))
          (concatenate STx2 1
            [⟨STx1, broadcastInDim STx1 ![0] hcol (wrapped hbi 4096#32 x8)⟩,
              ⟨STx1, broadcastInDim STx1 ![0] hcol (wrapped hbi 64#32 x9)⟩] hcat2)
          (shapeCast ST ps hflat))
        (mulf (broadcastInDim SNxK ![] hb0 (constant (F := Ideal) Sc .f32 0x3F000000#32)) x6)⟩,
      ⟨SNx1, broadcastInDim SNx1 ![0, 1] hb11 (shapeCast S1x1 x7 h11)⟩] hcat

end Cert.PairScore

end
-- ==== Proof.KernelHost.lean ====
/-
  The kernel program's host operations around its region, read as functions of the argument arrays.

  Before the region the host builds the feature matrix from the mention embeddings, the mention indices and the candidate
  embeddings and narrows it and the two weight matrices to the short float format — the identity on the extended
  reals —, so the region finds the feature matrix and the weights themselves.  After the region the host turns the
  region's output column into the result matrix by the shared scatter, prior and bias-column operations.
-/
import proofs.«123617_j89232240542409_1_alg».proof.Proof.Gen.KernelIdeal.Frame
import proofs.«123617_j89232240542409_1_alg».proof.Proof.HostParts
import Idealize.ShloMosaic.Lib.StableHlo.Run

noncomputable section

namespace Cert.KernelIdeal.Score

open Cert.KernelIdeal Cert.KernelIdeal.Gen Idealize.ShloMosaic Idealize.ShloMosaic.TcCoe Idealize.SL.Sem
open Idealize.ShloMosaic.StableHlo Cert.PairScore

variable (m : (ℓ : Loc nD τ sig) → Buf (Elt Ideal) ℓ)

/-- The region finds the feature matrix of the argument arrays. -/
theorem V_features (c : Dev nD) :
    (V m c main_v8 : S131072x1536.Idx → EReal)
      = features gather_S4096x768_S131072x1_S131072x768_1_0_n_n_0_1_1768 bcast_S_S131072 bcast_S131072_S131072x1_0
          concatenates_S131072x768_S131072x768_S131072x1536_d1
          (m ((c : Thread nD τ).loc main_arg0)) (m ((c : Thread nD τ).loc main_arg1)) (m ((c : Thread nD τ).loc main_arg8)) := by
  show StableHlo.after (hostOps0 (F := Ideal)) (fun b => m (c, b)) (Proc.devRef .tc main_v8) = _
  after_results
  rfl

/-- The region finds the first weight matrix itself. -/
theorem V_W1 (c : Dev nD) :
    (V m c main_v9 : S1536x768.Idx → EReal) = m ((c : Thread nD τ).loc main_arg2) := by
  show StableHlo.after (hostOps0 (F := Ideal)) (fun b => m (c, b)) (Proc.devRef .tc main_v9) = _
  after_results
  rfl

/-- The region finds the second weight matrix itself. -/
theorem V_W2 (c : Dev nD) :
    (V m c main_v10 : S768x1.Idx → EReal) = m ((c : Thread nD τ).loc main_arg4) := by
  show StableHlo.after (hostOps0 (F := Ideal)) (fun b => m (c, b)) (Proc.devRef .tc main_v10) = _
  after_results
  rfl

set_option maxHeartbeats 4000000 in
/-- The host operations after the region, from any contents of the buffers they read: the result matrix of the
    region's output column, the prior, the bias and the two index vectors. -/
theorem tail_value (Wv : Valuation τ sig (Elt Ideal)) :
    StableHlo.after (hostOps1 (F := Ideal)) Wv (Proc.devRef .tc main_v33)
      = padded scatter_S4096x64_S131072x2_S131072_n_01_01_1 bcast_S_S4096x64 bcast_S_S131072 bcast_S131072_S131072x1_0
          concatenates_S131072x1_S131072x1_S131072x2_d1 shapeCasts_S131072x1_S131072 shapeCasts_S_S1x1
          bcast_S1x1_S4096x1_0_1 concatenates_S4096x64_S4096x1_S4096x65_d1
          (Wv (Proc.devRef .tc main_v11)) (Wv (Proc.devRef .tc main_arg6)) (Wv (Proc.devRef .tc main_arg7))
          (Wv (Proc.devRef .tc main_arg8)) (Wv (Proc.devRef .tc main_arg9)) := by
  after_results
  rfl

end Cert.KernelIdeal.Score

end
-- ==== Proof.KernelValue.lean ====
/-
  The kernel program's run, with its result as one function of the argument arrays.

  The region's output array is the column of pair scores of the arrays the region finds, which are the feature matrix,
  the weights and the biases of the arguments; the host operations after the region turn that column into the result
  matrix.  So the program ends with the result matrix of the pair scores of the arguments, the arguments unchanged.
-/
import proofs.«123617_j89232240542409_1_alg».proof.Proof.KernelBlocks
import proofs.«123617_j89232240542409_1_alg».proof.Proof.KernelHost

noncomputable section

namespace Cert.KernelIdeal.Score

open Cert.KernelIdeal Cert.KernelIdeal.Gen Idealize.ShloMosaic Idealize.ShloMosaic.TcCoe Idealize.SL.Sem
open Cert.PairScore
open Idealize.ShloMosaic.Pipeline (Dat)

variable (m : (ℓ : Loc nD τ sig) → Buf (Elt Ideal) ℓ) (ρ : Dev nD → PrngReg)

/-- The column of pair scores of the argument arrays. -/
abbrev argScores (c : Dev nD) : S131072x1.Idx → EReal :=
  scoreCol
    (features gather_S4096x768_S131072x1_S131072x768_1_0_n_n_0_1_1768 bcast_S_S131072 bcast_S131072_S131072x1_0
          concatenates_S131072x768_S131072x768_S131072x1536_d1
      (m ((c : Thread nD τ).loc main_arg0)) (m ((c : Thread nD τ).loc main_arg1)) (m ((c : Thread nD τ).loc main_arg8)))
    (m ((c : Thread nD τ).loc main_arg2)) (m ((c : Thread nD τ).loc main_arg3)) (m ((c : Thread nD τ).loc main_arg4))
    (m ((c : Thread nD τ).loc main_arg5))

/-- The result matrix of the argument arrays. -/
abbrev result (c : Dev nD) : S4096x65.Idx → EReal :=
  padded scatter_S4096x64_S131072x2_S131072_n_01_01_1 bcast_S_S4096x64 bcast_S_S131072 bcast_S131072_S131072x1_0
      concatenates_S131072x1_S131072x1_S131072x2_d1 shapeCasts_S131072x1_S131072 shapeCasts_S_S1x1
      bcast_S1x1_S4096x1_0_1 concatenates_S4096x64_S4096x1_S4096x65_d1
    (argScores m c) (m ((c : Thread nD τ).loc main_arg6)) (m ((c : Thread nD τ).loc main_arg7))
    (m ((c : Thread nD τ).loc main_arg8)) (m ((c : Thread nD τ).loc main_arg9))

/-- The pair scores of the arrays the region finds are those of the arguments. -/
theorem scores_eq (c : Dev nD) : scores m c = argScores m c :=
  scoreCol_congr (V_features m c) (V_W1 m c) (V_main_arg3 m c) (V_W2 m c) (V_main_arg5 m c)

/-- What the host operations after the region leave in the result buffer. -/
theorem result_value (c : Dev nD) :
    Pipeline.afterTail₀ cfgs (dats m) 0 (V0 m) [hostOps1] c main_v33 = result m c := by
  unfold Pipeline.afterTail₀
  show StableHlo.after (hostOps1 (F := Ideal)) _ (Proc.devRef .tc main_v33) = _
  rw [tail_value]
  have e5 : Pipeline.withArrays spec0 c (V0 m c) (fun w => (dats m 0 c).arrAt w cfg0.N) (Proc.devRef .tc main_v11) = argScores m c :=
    ((Pipeline.withArrays_arr spec0 launch0.win.arr_inj c _ _ 5).trans (final5 m c)).trans (scores_eq m c)
  have e6 : Pipeline.withArrays spec0 c (V0 m c) (fun w => (dats m 0 c).arrAt w cfg0.N) (Proc.devRef .tc main_arg6) = m ((c : Thread nD τ).loc main_arg6) :=
    (Pipeline.withArrays_of_ne _ c (V0 m c) _ main_arg6 (by exact (by decide : ∀ w, Pipeline.arrRef spec0 w ≠ main_arg6))).trans
      (V_main_arg6 m c)
  have e7 : Pipeline.withArrays spec0 c (V0 m c) (fun w => (dats m 0 c).arrAt w cfg0.N) (Proc.devRef .tc main_arg7) = m ((c : Thread nD τ).loc main_arg7) :=
    (Pipeline.withArrays_of_ne _ c (V0 m c) _ main_arg7 (by exact (by decide : ∀ w, Pipeline.arrRef spec0 w ≠ main_arg7))).trans
      (V_main_arg7 m c)
  have e8 : Pipeline.withArrays spec0 c (V0 m c) (fun w => (dats m 0 c).arrAt w cfg0.N) (Proc.devRef .tc main_arg8) = m ((c : Thread nD τ).loc main_arg8) :=
    (Pipeline.withArrays_of_ne _ c (V0 m c) _ main_arg8 (by exact (by decide : ∀ w, Pipeline.arrRef spec0 w ≠ main_arg8))).trans
      (V_main_arg8 m c)
  have e9 : Pipeline.withArrays spec0 c (V0 m c) (fun w => (dats m 0 c).arrAt w cfg0.N) (Proc.devRef .tc main_arg9) = m ((c : Thread nD τ).loc main_arg9) :=
    (Pipeline.withArrays_of_ne _ c (V0 m c) _ main_arg9 (by exact (by decide : ∀ w, Pipeline.arrRef spec0 w ≠ main_arg9))).trans
      (V_main_arg9 m c)
  rw [e5, e6, e7, e8, e9]

/-- Every weakly fair execution of the kernel program terminates with the result matrix of the arguments in the result
    buffer and the arguments unchanged. -/
theorem run : θ_run defs (onTc (τ := τ) (main (F := Ideal))) ⟨m, fun _ => 0, ρ⟩ (fun r => ∀ c : Dev nD,
      r.2.mem ((c.tc : Thread nD τ).loc main_v33) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v33 (Pipeline.mem_restRefs_of main_v33 (by decide) (by decide))).trans (result_value m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      (((h c).2 main_arg4 (Pipeline.mem_restRefs_of main_arg4 (by decide) (by decide))).trans (W_main_arg4 m (dats m) c)),
      ((h c).1 4).trans (((dats m 0 c).arrAt_in 4 rfl _).trans ((A_eq m c 4).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.KernelIdeal.Score

end
-- ==== Proof.LibHostDot.lean ====
/-
  A host matrix product read at one entry.

  The host's `dot_general` of an M × K matrix with a K × N matrix — left contracting axis 1, right contracting axis 0, no
  batch axis: the plain product l · r — is at the ideal values the sum over the contraction coordinate k of
  l (i, k) · r (k, j): entry (i, j) is the dot product of row i of the left operand with column j of the right one.
  The statement is over any dimension record whose six lists are those, whatever name a printed record carries.
-/
import Idealize.ShloMosaic.Lib.ValueIdx
import Idealize.ShloMosaic.PureOps.Ideal.Laws

noncomputable section

open scoped BigOperators

namespace Idealize.ShloMosaic.HostDot

open Idealize.ShloMosaic Idealize.ShloMosaic.ValueIdx

/-- Entry (i, j) of an M × K by K × N host `dot_general` contracting the left operand's columns with the right
    operand's rows, at the ideal values: the dot product of the left operand's row i with the right operand's column j. -/
theorem dotGeneral_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    Host.dotGeneral D prec l r (ix2 i j) = ∑ k : Fin K, l (ix2 i k) * r (ix2 k j) := by
  obtain ⟨lc, rc, ln, rn, lb, rb, wf⟩ := D
  dsimp only at hlc hrc hln hrn hlb hrb
  subst hlc hrc hln hrn hlb hrb
  refine (Ideal.dotGeneral_apply _ prec .single l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.HostDot

end
-- ==== Proof.RefScore.lean ====
/-
  The reference's column of pair scores, read at one entry.

  The reference multiplies the whole feature matrix by the first weight matrix, adds the first bias to every row, takes
  the maximum with zero, multiplies by the second weight matrix and adds the one-entry second bias to every row.  Entry
  (t, 0) of the result is the pair score of row t: each host product is the sum over its contracted axis, a bias repeated
  down the rows reads the bias at the column, and the zero matrix reads the zero word.
-/
import proofs.«123617_j89232240542409_1_alg».proof.Proof.Gen.ReferenceIdeal
import proofs.«123617_j89232240542409_1_alg».proof.Proof.Score
import proofs.«123617_j89232240542409_1_alg».proof.Proof.LibHostDot
import Idealize.ShloMosaic.Lib.Pipeline.Value
import Idealize.ShloMosaic.Lib.ValueIdx

noncomputable section

open scoped BigOperators

namespace Cert.ReferenceIdeal.Score

open Cert.ReferenceIdeal Cert.ReferenceIdeal.Gen Idealize.ShloMosaic Idealize.ShloMosaic.ValueIdx Cert.PairScore

/-- The reference's column of scores as its host operations compose it from the feature matrix, the weights and the
    biases. -/
def refScores (X : FVec Ideal S131072x1536 .f32) (x2 : FVec Ideal S1536x768 .f32) (x3 : FVec Ideal S768 .f32)
    (x4 : FVec Ideal S768x1 .f32) (x5 : FVec Ideal S1 .f32) : FVec Ideal S131072x1 .f32 :=
  addf
    (Host.dotGeneral dot_S131072x768_S768x1_S131072x1_1_0_0_1_n_n none
      (maximumf
        (addf (Host.dotGeneral dot_S131072x1536_S1536x768_S131072x768_1_0_0_1_n_n none X x2)
          (broadcastInDim S131072x768 ![0, 1] bcast_S1x768_S131072x768_0_1
            (broadcastInDim S1x768 ![1] bcast_S768_S1x768_1 x3)))
        (broadcastInDim S131072x768 ![] bcast_S_S131072x768 (constant S_ .f32 0x00000000#32)))
      x4)
    (broadcastInDim S131072x1 ![0, 1] bcast_S1x1_S131072x1_0_1 (broadcastInDim S1x1 ![1] bcast_S1_S1x1_1 x5))

/-- The first bias repeated down the 131072 rows reads, at (t, j), the bias at j. -/
theorem bias1_apply (x3 : FVec Ideal S768 .f32) (t : Fin 131072) (j : Fin 768) :
    broadcastInDim S131072x768 ![0, 1] bcast_S1x768_S131072x768_0_1 (broadcastInDim S1x768 ![1] bcast_S768_S1x768_1 x3)
      (ix2 t j) = x3 (ix1 j) :=
  (broadcastInDim_apply _ bcast_S1x768_S131072x768_0_1 _ (ix2 t j) (ix2 (0 : Fin 1) j) (fun a => match a with
    | ⟨0, _⟩ => by show 0 = if (1 : Nat) = 1 then 0 else t.val; rw [if_pos rfl]
    | ⟨1, _⟩ => by show j.val = if (768 : Nat) = 1 then 0 else j.val; rw [if_neg (by decide)])).trans
  (broadcastInDim_apply _ bcast_S768_S1x768_1 x3 (ix2 (0 : Fin 1) j) (ix1 j) (fun a => match a with
    | ⟨0, _⟩ => by show j.val = if (768 : Nat) = 1 then 0 else j.val; rw [if_neg (by decide)]))

/-- The one-entry second bias repeated down the 131072 rows reads its one entry everywhere. -/
theorem bias2_apply (x5 : FVec Ideal S1 .f32) (t : Fin 131072) (u : Fin 1) :
    broadcastInDim S131072x1 ![0, 1] bcast_S1x1_S131072x1_0_1 (broadcastInDim S1x1 ![1] bcast_S1_S1x1_1 x5) (ix2 t u)
      = x5 (ix1 (0 : Fin 1)) :=
  (broadcastInDim_apply _ bcast_S1x1_S131072x1_0_1 _ (ix2 t u) (ix2 (0 : Fin 1) (0 : Fin 1)) (fun a => match a with
    | ⟨0, _⟩ => by show 0 = if (1 : Nat) = 1 then 0 else t.val; rw [if_pos rfl]
    | ⟨1, _⟩ => by show 0 = if (1 : Nat) = 1 then 0 else u.val; rw [if_pos rfl])).trans
  (broadcastInDim_apply _ bcast_S1_S1x1_1 x5 (ix2 (0 : Fin 1) (0 : Fin 1)) (ix1 (0 : Fin 1)) (fun a => match a with
    | ⟨0, _⟩ => by show 0 = if (1 : Nat) = 1 then 0 else 0; rw [if_pos rfl]))

/-- The matrix of zeros reads the zero word. -/
theorem zeros_apply (i : S131072x768.Idx) :
    broadcastInDim S131072x768 ![] bcast_S_S131072x768 (constant (F := Ideal) S_ .f32 0x00000000#32) i
      = (Ideal.ofBits .f32 0x00000000#32 : EReal) :=
  broadcastInDim_apply _ bcast_S_S131072x768 _ i ix0 (fun a => a.elim0)

/-- Entry (t, 0) of the reference's column is the pair score of row t of the feature matrix. -/
theorem refScores_eq (X : FVec Ideal S131072x1536 .f32) (x2 : FVec Ideal S1536x768 .f32) (x3 : FVec Ideal S768 .f32)
    (x4 : FVec Ideal S768x1 .f32) (x5 : FVec Ideal S1 .f32) :
    refScores X x2 x3 x4 x5 = scoreCol X x2 x3 x4 x5 := by
  funext i
  obtain ⟨t, u, rfl⟩ : ∃ (t : Fin 131072) (u : Fin 1), i = ix2 t u := ⟨i 0, i 1, eq_ix2 i⟩
  obtain rfl : u = 0 := Fin.ext (by omega)
  unfold refScores scoreCol rowScore
  rw [addf_apply,
    HostDot.dotGeneral_apply dot_S131072x768_S768x1_S131072x1_1_0_0_1_n_n rfl rfl rfl rfl rfl rfl none _ x4 t 0,
    bias2_apply]
  refine congrArg (· + x5 (ix1 (0 : Fin 1))) (Finset.sum_congr rfl fun j _ => ?_)
  rw [maximumf_apply, addf_apply,
    HostDot.dotGeneral_apply dot_S131072x1536_S1536x768_S131072x768_1_0_0_1_n_n rfl rfl rfl rfl rfl rfl none X x2 t j,
    bias1_apply, zeros_apply]

end Cert.ReferenceIdeal.Score

end
-- ==== Proof.LibAfterAppend.lean ====
/-
  A straight line of host operations read back in two stretches.

  The contents of the buffers after a list of host operations is the fold of the operations' results over the
  contents before it.  The fold over a list cut in two is the fold over the second part of the fold over the first:
  running one stretch after another is running the two in turn.  So a long program can be read back one stretch at a
  time, each stretch's result stated once as a function of the buffers it reads.
-/
import Idealize.ShloMosaic.Lib.StableHlo.Run

noncomputable section

namespace Idealize.ShloMosaic.StableHlo

variable {τ : Topo} {sig : RefSig} {Val : EltTy → Type}

/-- The buffers after the operations `A` followed by the operations `B` are the buffers after `B` run from the buffers
    after `A`. -/
theorem after_append (A B : List (HloOp τ sig Val)) (V : Valuation τ sig Val) :
    after (A ++ B) V = after B (after A V) := by
  induction A generalizing V with
  | nil => rfl
  | cons a A ih => exact ih _

end Idealize.ShloMosaic.StableHlo

end
-- ==== Proof.RefRun.lean ====
/-
  The reference program's run, with its result as one function of the argument arrays.

  The reference is a straight line of 49 host operations.  The first 21 build the feature matrix and the column of pair
  scores; the last 28 flatten the column, scatter it into the zero matrix, add half the prior and append the bias column.
  Read back in those two stretches, the result buffer ends holding the result matrix of the reference's column of
  scores, and no operation writes an argument.
-/
import proofs.«123617_j89232240542409_1_alg».proof.Proof.Gen.ReferenceIdeal
import proofs.«123617_j89232240542409_1_alg».proof.Proof.HostParts
import proofs.«123617_j89232240542409_1_alg».proof.Proof.RefScore
import proofs.«123617_j89232240542409_1_alg».proof.Proof.LibAfterAppend
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem
open Idealize.ShloMosaic.StableHlo Cert.PairScore Cert.ReferenceIdeal.Score

variable {F : FTy → Type} [FloatOps F]

/-- The operations that build the feature matrix and the column of pair scores, in order (the rectifier's three
    operations stand where the program calls it). -/
abbrev opsA : List (HloOp τ sig (Elt F)) :=
  [ nullary main_c (constantI S_ 32 0#32),
    unary main_c main_v0 (broadcastInDim S131072 ![] bcast_S_S131072 : (⟨S_, .i32⟩ : BufTy).Contents (Elt F) → (⟨S131072, .i32⟩ : BufTy).Contents (Elt F)),
    binary main_arg8 main_v0 main_v1 (cmpi .slt : (⟨S131072, .i32⟩ : BufTy).Contents (Elt F) → (⟨S131072, .i32⟩ : BufTy).Contents (Elt F) → (⟨S131072, .i1⟩ : BufTy).Contents (Elt F)),
    nullary main_c_0 (constantI S_ 32 4096#32),
    unary main_c_0 main_v2 (broadcastInDim S131072 ![] bcast_S_S131072 : (⟨S_, .i32⟩ : BufTy).Contents (Elt F) → (⟨S131072, .i32⟩ : BufTy).Contents (Elt F)),
    binary main_arg8 main_v2 main_v3 (addi : (⟨S131072, .i32⟩ : BufTy).Contents (Elt F) → (⟨S131072, .i32⟩ : BufTy).Contents (Elt F) → (⟨S131072, .i32⟩ : BufTy).Contents (Elt F)),
    ternary main_v1 main_v3 main_arg8 main_v4 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v4 main_v5 (broadcastInDim S131072x1 ![0] bcast_S131072_S131072x1_0 : (⟨S131072, .i32⟩ : BufTy).Contents (Elt F) → (⟨S131072x1, .i32⟩ : BufTy).Contents (Elt F)),
    binary main_arg0 main_v5 main_v6 ((fun x i => Host.gather gather_S4096x768_S131072x1_S131072x768_1_0_n_n_0_1_1768 x i) : (⟨S4096x768, .f32⟩ : BufTy).Contents (Elt F) → (⟨S131072x1, .i32⟩ : BufTy).Contents (Elt F) → (⟨S131072x768, .f32⟩ : BufTy).Contents (Elt F)),
    binary main_v6 main_arg1 main_v7 ((fun a b => concatenate S131072x1536 1 [⟨S131072x768, a⟩, ⟨S131072x768, b⟩] concatenates_S131072x768_S131072x768_S131072x1536_d1) : (⟨S131072x768, .f32⟩ : BufTy).Contents (Elt F) → (⟨S131072x768, .f32⟩ : BufTy).Contents (Elt F) → (⟨S131072x1536, .f32⟩ : BufTy).Contents (Elt F)),
    binary main_v7 main_arg2 main_v8 ((fun l r => Host.dotGeneral dot_S131072x1536_S1536x768_S131072x768_1_0_0_1_n_n none l r) : (⟨S131072x1536, .f32⟩ : BufTy).Contents (Elt F) → (⟨S1536x768, .f32⟩ : BufTy).Contents (Elt F) → (⟨S131072x768, .f32⟩ : BufTy).Contents (Elt F)),
    unary main_arg3 main_v9 (broadcastInDim S1x768 ![1] bcast_S768_S1x768_1 : (⟨S768, .f32⟩ : BufTy).Contents (Elt F) → (⟨S1x768, .f32⟩ : BufTy).Contents (Elt F)),
    unary main_v9 main_v10 (broadcastInDim S131072x768 ![0, 1] bcast_S1x768_S131072x768_0_1 : (⟨S1x768, .f32⟩ : BufTy).Contents (Elt F) → (⟨S131072x768, .f32⟩ : BufTy).Contents (Elt F)),
    binary main_v8 main_v10 main_v11 (addf : (⟨S131072x768, .f32⟩ : BufTy).Contents (Elt F) → (⟨S131072x768, .f32⟩ : BufTy).Contents (Elt F) → (⟨S131072x768, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S131072x768, .f32⟩) main_call0_v0) (broadcastInDim S131072x768 ![] bcast_S_S131072x768),
    TRef.binary (TRef.of (T := ⟨S131072x768, .f32⟩) main_v11) (TRef.of (T := ⟨S131072x768, .f32⟩) main_call0_v0) (TRef.of (T := ⟨S131072x768, .f32⟩) main_v12) maximumf,
    binary main_v12 main_arg4 main_v13 ((fun l r => Host.dotGeneral dot_S131072x768_S768x1_S131072x1_1_0_0_1_n_n none l r) : (⟨S131072x768, .f32⟩ : BufTy).Contents (Elt F) → (⟨S768x1, .f32⟩ : BufTy).Contents (Elt F) → (⟨S131072x1, .f32⟩ : BufTy).Contents (Elt F)),
    unary main_arg5 main_v14 (broadcastInDim S1x1 ![1] bcast_S1_S1x1_1 : (⟨S1, .f32⟩ : BufTy).Contents (Elt F) → (⟨S1x1, .f32⟩ : BufTy).Contents (Elt F)),
    unary main_v14 main_v15 (broadcastInDim S131072x1 ![0, 1] bcast_S1x1_S131072x1_0_1 : (⟨S1x1, .f32⟩ : BufTy).Contents (Elt F) → (⟨S131072x1, .f32⟩ : BufTy).Contents (Elt F)),
    binary main_v13 main_v15 main_v16 (addf : (⟨S131072x1, .f32⟩ : BufTy).Contents (Elt F) → (⟨S131072x1, .f32⟩ : BufTy).Contents (Elt F) → (⟨S131072x1, .f32⟩ : BufTy).Contents (Elt F)) ]

/-- The operations that turn the column of pair scores into the result matrix, in order. -/
abbrev opsB : List (HloOp τ sig (Elt F)) :=
  [ reshape main_v16 main_v17 rfl shapeCasts_S131072x1_S131072,
    nullary main_cst (constant S_ .f32 0x00000000#32),
    unary main_cst main_v18 (broadcastInDim S4096x64 ![] bcast_S_S4096x64 : (⟨S_, .f32⟩ : BufTy).Contents (Elt F) → (⟨S4096x64, .f32⟩ : BufTy).Contents (Elt F)),
    nullary main_c_1 (constantI S_ 32 0#32),
    unary main_c_1 main_v19 (broadcastInDim S131072 ![] bcast_S_S131072 : (⟨S_, .i32⟩ : BufTy).Contents (Elt F) → (⟨S131072, .i32⟩ : BufTy).Contents (Elt F)),
    binary main_arg8 main_v19 main_v20 (cmpi .slt : (⟨S131072, .i32⟩ : BufTy).Contents (Elt F) → (⟨S131072, .i32⟩ : BufTy).Contents (Elt F) → (⟨S131072, .i1⟩ : BufTy).Contents (Elt F)),
    nullary main_c_2 (constantI S_ 32 4096#32),
    unary main_c_2 main_v21 (broadcastInDim S131072 ![] bcast_S_S131072 : (⟨S_, .i32⟩ : BufTy).Contents (Elt F) → (⟨S131072, .i32⟩ : BufTy).Contents (Elt F)),
    binary main_arg8 main_v21 main_v22 (addi : (⟨S131072, .i32⟩ : BufTy).Contents (Elt F) → (⟨S131072, .i32⟩ : BufTy).Contents (Elt F) → (⟨S131072, .i32⟩ : BufTy).Contents (Elt F)),
    ternary main_v20 main_v22 main_arg8 main_v23 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    nullary main_c_3 (constantI S_ 32 0#32),
    unary main_c_3 main_v24 (broadcastInDim S131072 ![] bcast_S_S131072 : (⟨S_, .i32⟩ : BufTy).Contents (Elt F) → (⟨S131072, .i32⟩ : BufTy).Contents (Elt F)),
    binary main_arg9 main_v24 main_v25 (cmpi .slt : (⟨S131072, .i32⟩ : BufTy).Contents (Elt F) → (⟨S131072, .i32⟩ : BufTy).Contents (Elt F) → (⟨S131072, .i1⟩ : BufTy).Contents (Elt F)),
    nullary main_c_4 (constantI S_ 32 64#32),
    unary main_c_4 main_v26 (broadcastInDim S131072 ![] bcast_S_S131072 : (⟨S_, .i32⟩ : BufTy).Contents (Elt F) → (⟨S131072, .i32⟩ : BufTy).Contents (Elt F)),
    binary main_arg9 main_v26 main_v27 (addi : (⟨S131072, .i32⟩ : BufTy).Contents (Elt F) → (⟨S131072, .i32⟩ : BufTy).Contents (Elt F) → (⟨S131072, .i32⟩ : BufTy).Contents (Elt F)),
    ternary main_v25 main_v27 main_arg9 main_v28 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v23 main_v29 (broadcastInDim S131072x1 ![0] bcast_S131072_S131072x1_0 : (⟨S131072, .i32⟩ : BufTy).Contents (Elt F) → (⟨S131072x1, .i32⟩ : BufTy).Contents (Elt F)),
    unary main_v28 main_v30 (broadcastInDim S131072x1 ![0] bcast_S131072_S131072x1_0 : (⟨S131072, .i32⟩ : BufTy).Contents (Elt F) → (⟨S131072x1, .i32⟩ : BufTy).Contents (Elt F)),
    binary main_v29 main_v30 main_v31 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    ternary main_v18 main_v31 main_v17 main_v32 ((fun x i u => Host.scatter scatter_S4096x64_S131072x2_S131072_n_01_01_1 (fun _ b => b) x i u) : (⟨S4096x64, .f32⟩ : BufTy).Contents (Elt F) → (⟨S131072x2, .i32⟩ : BufTy).Contents (Elt F) → (⟨S131072, .f32⟩ : BufTy).Contents (Elt F) → (⟨S4096x64, .f32⟩ : BufTy).Contents (Elt F)),
    nullary main_cst_5 (constant S_ .f32 0x3F000000#32),
    unary main_cst_5 main_v33 (broadcastInDim S4096x64 ![] bcast_S_S4096x64 : (⟨S_, .f32⟩ : BufTy).Contents (Elt F) → (⟨S4096x64, .f32⟩ : BufTy).Contents (Elt F)),
    binary main_v33 main_arg6 main_v34 (mulf : (⟨S4096x64, .f32⟩ : BufTy).Contents (Elt F) → (⟨S4096x64, .f32⟩ : BufTy).Contents (Elt F) → (⟨S4096x64, .f32⟩ : BufTy).Contents (Elt F)),
    binary main_v32 main_v34 main_v35 (addf : (⟨S4096x64, .f32⟩ : BufTy).Contents (Elt F) → (⟨S4096x64, .f32⟩ : BufTy).Contents (Elt F) → (⟨S4096x64, .f32⟩ : BufTy).Contents (Elt F)),
    reshape main_arg7 main_v36 rfl shapeCasts_S_S1x1,
    unary main_v36 main_v37 (broadcastInDim S4096x1 ![0, 1] bcast_S1x1_S4096x1_0_1 : (⟨S1x1, .f32⟩ : BufTy).Contents (Elt F) → (⟨S4096x1, .f32⟩ : BufTy).Contents (Elt F)),
    binary main_v35 main_v37 main_v38 ((fun a b => concatenate S4096x65 1 [⟨S4096x64, a⟩, ⟨S4096x1, b⟩] concatenates_S4096x64_S4096x1_S4096x65_d1) : (⟨S4096x64, .f32⟩ : BufTy).Contents (Elt F) → (⟨S4096x1, .f32⟩ : BufTy).Contents (Elt F) → (⟨S4096x65, .f32⟩ : BufTy).Contents (Elt F)) ]

/-- The whole program's operations. -/
abbrev ops : List (HloOp τ sig (Elt F)) :=
  [ nullary main_c (constantI S_ 32 0#32),
    unary main_c main_v0 (broadcastInDim S131072 ![] bcast_S_S131072 : (⟨S_, .i32⟩ : BufTy).Contents (Elt F) → (⟨S131072, .i32⟩ : BufTy).Contents (Elt F)),
    binary main_arg8 main_v0 main_v1 (cmpi .slt : (⟨S131072, .i32⟩ : BufTy).Contents (Elt F) → (⟨S131072, .i32⟩ : BufTy).Contents (Elt F) → (⟨S131072, .i1⟩ : BufTy).Contents (Elt F)),
    nullary main_c_0 (constantI S_ 32 4096#32),
    unary main_c_0 main_v2 (broadcastInDim S131072 ![] bcast_S_S131072 : (⟨S_, .i32⟩ : BufTy).Contents (Elt F) → (⟨S131072, .i32⟩ : BufTy).Contents (Elt F)),
    binary main_arg8 main_v2 main_v3 (addi : (⟨S131072, .i32⟩ : BufTy).Contents (Elt F) → (⟨S131072, .i32⟩ : BufTy).Contents (Elt F) → (⟨S131072, .i32⟩ : BufTy).Contents (Elt F)),
    ternary main_v1 main_v3 main_arg8 main_v4 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v4 main_v5 (broadcastInDim S131072x1 ![0] bcast_S131072_S131072x1_0 : (⟨S131072, .i32⟩ : BufTy).Contents (Elt F) → (⟨S131072x1, .i32⟩ : BufTy).Contents (Elt F)),
    binary main_arg0 main_v5 main_v6 ((fun x i => Host.gather gather_S4096x768_S131072x1_S131072x768_1_0_n_n_0_1_1768 x i) : (⟨S4096x768, .f32⟩ : BufTy).Contents (Elt F) → (⟨S131072x1, .i32⟩ : BufTy).Contents (Elt F) → (⟨S131072x768, .f32⟩ : BufTy).Contents (Elt F)),
    binary main_v6 main_arg1 main_v7 ((fun a b => concatenate S131072x1536 1 [⟨S131072x768, a⟩, ⟨S131072x768, b⟩] concatenates_S131072x768_S131072x768_S131072x1536_d1) : (⟨S131072x768, .f32⟩ : BufTy).Contents (Elt F) → (⟨S131072x768, .f32⟩ : BufTy).Contents (Elt F) → (⟨S131072x1536, .f32⟩ : BufTy).Contents (Elt F)),
    binary main_v7 main_arg2 main_v8 ((fun l r => Host.dotGeneral dot_S131072x1536_S1536x768_S131072x768_1_0_0_1_n_n none l r) : (⟨S131072x1536, .f32⟩ : BufTy).Contents (Elt F) → (⟨S1536x768, .f32⟩ : BufTy).Contents (Elt F) → (⟨S131072x768, .f32⟩ : BufTy).Contents (Elt F)),
    unary main_arg3 main_v9 (broadcastInDim S1x768 ![1] bcast_S768_S1x768_1 : (⟨S768, .f32⟩ : BufTy).Contents (Elt F) → (⟨S1x768, .f32⟩ : BufTy).Contents (Elt F)),
    unary main_v9 main_v10 (broadcastInDim S131072x768 ![0, 1] bcast_S1x768_S131072x768_0_1 : (⟨S1x768, .f32⟩ : BufTy).Contents (Elt F) → (⟨S131072x768, .f32⟩ : BufTy).Contents (Elt F)),
    binary main_v8 main_v10 main_v11 (addf : (⟨S131072x768, .f32⟩ : BufTy).Contents (Elt F) → (⟨S131072x768, .f32⟩ : BufTy).Contents (Elt F) → (⟨S131072x768, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S131072x768, .f32⟩) main_call0_v0) (broadcastInDim S131072x768 ![] bcast_S_S131072x768),
    TRef.binary (TRef.of (T := ⟨S131072x768, .f32⟩) main_v11) (TRef.of (T := ⟨S131072x768, .f32⟩) main_call0_v0) (TRef.of (T := ⟨S131072x768, .f32⟩) main_v12) maximumf,
    binary main_v12 main_arg4 main_v13 ((fun l r => Host.dotGeneral dot_S131072x768_S768x1_S131072x1_1_0_0_1_n_n none l r) : (⟨S131072x768, .f32⟩ : BufTy).Contents (Elt F) → (⟨S768x1, .f32⟩ : BufTy).Contents (Elt F) → (⟨S131072x1, .f32⟩ : BufTy).Contents (Elt F)),
    unary main_arg5 main_v14 (broadcastInDim S1x1 ![1] bcast_S1_S1x1_1 : (⟨S1, .f32⟩ : BufTy).Contents (Elt F) → (⟨S1x1, .f32⟩ : BufTy).Contents (Elt F)),
    unary main_v14 main_v15 (broadcastInDim S131072x1 ![0, 1] bcast_S1x1_S131072x1_0_1 : (⟨S1x1, .f32⟩ : BufTy).Contents (Elt F) → (⟨S131072x1, .f32⟩ : BufTy).Contents (Elt F)),
    binary main_v13 main_v15 main_v16 (addf : (⟨S131072x1, .f32⟩ : BufTy).Contents (Elt F) → (⟨S131072x1, .f32⟩ : BufTy).Contents (Elt F) → (⟨S131072x1, .f32⟩ : BufTy).Contents (Elt F)),
    reshape main_v16 main_v17 rfl shapeCasts_S131072x1_S131072,
    nullary main_cst (constant S_ .f32 0x00000000#32),
    unary main_cst main_v18 (broadcastInDim S4096x64 ![] bcast_S_S4096x64 : (⟨S_, .f32⟩ : BufTy).Contents (Elt F) → (⟨S4096x64, .f32⟩ : BufTy).Contents (Elt F)),
    nullary main_c_1 (constantI S_ 32 0#32),
    unary main_c_1 main_v19 (broadcastInDim S131072 ![] bcast_S_S131072 : (⟨S_, .i32⟩ : BufTy).Contents (Elt F) → (⟨S131072, .i32⟩ : BufTy).Contents (Elt F)),
    binary main_arg8 main_v19 main_v20 (cmpi .slt : (⟨S131072, .i32⟩ : BufTy).Contents (Elt F) → (⟨S131072, .i32⟩ : BufTy).Contents (Elt F) → (⟨S131072, .i1⟩ : BufTy).Contents (Elt F)),
    nullary main_c_2 (constantI S_ 32 4096#32),
    unary main_c_2 main_v21 (broadcastInDim S131072 ![] bcast_S_S131072 : (⟨S_, .i32⟩ : BufTy).Contents (Elt F) → (⟨S131072, .i32⟩ : BufTy).Contents (Elt F)),
    binary main_arg8 main_v21 main_v22 (addi : (⟨S131072, .i32⟩ : BufTy).Contents (Elt F) → (⟨S131072, .i32⟩ : BufTy).Contents (Elt F) → (⟨S131072, .i32⟩ : BufTy).Contents (Elt F)),
    ternary main_v20 main_v22 main_arg8 main_v23 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    nullary main_c_3 (constantI S_ 32 0#32),
    unary main_c_3 main_v24 (broadcastInDim S131072 ![] bcast_S_S131072 : (⟨S_, .i32⟩ : BufTy).Contents (Elt F) → (⟨S131072, .i32⟩ : BufTy).Contents (Elt F)),
    binary main_arg9 main_v24 main_v25 (cmpi .slt : (⟨S131072, .i32⟩ : BufTy).Contents (Elt F) → (⟨S131072, .i32⟩ : BufTy).Contents (Elt F) → (⟨S131072, .i1⟩ : BufTy).Contents (Elt F)),
    nullary main_c_4 (constantI S_ 32 64#32),
    unary main_c_4 main_v26 (broadcastInDim S131072 ![] bcast_S_S131072 : (⟨S_, .i32⟩ : BufTy).Contents (Elt F) → (⟨S131072, .i32⟩ : BufTy).Contents (Elt F)),
    binary main_arg9 main_v26 main_v27 (addi : (⟨S131072, .i32⟩ : BufTy).Contents (Elt F) → (⟨S131072, .i32⟩ : BufTy).Contents (Elt F) → (⟨S131072, .i32⟩ : BufTy).Contents (Elt F)),
    ternary main_v25 main_v27 main_arg9 main_v28 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v23 main_v29 (broadcastInDim S131072x1 ![0] bcast_S131072_S131072x1_0 : (⟨S131072, .i32⟩ : BufTy).Contents (Elt F) → (⟨S131072x1, .i32⟩ : BufTy).Contents (Elt F)),
    unary main_v28 main_v30 (broadcastInDim S131072x1 ![0] bcast_S131072_S131072x1_0 : (⟨S131072, .i32⟩ : BufTy).Contents (Elt F) → (⟨S131072x1, .i32⟩ : BufTy).Contents (Elt F)),
    binary main_v29 main_v30 main_v31 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    ternary main_v18 main_v31 main_v17 main_v32 ((fun x i u => Host.scatter scatter_S4096x64_S131072x2_S131072_n_01_01_1 (fun _ b => b) x i u) : (⟨S4096x64, .f32⟩ : BufTy).Contents (Elt F) → (⟨S131072x2, .i32⟩ : BufTy).Contents (Elt F) → (⟨S131072, .f32⟩ : BufTy).Contents (Elt F) → (⟨S4096x64, .f32⟩ : BufTy).Contents (Elt F)),
    nullary main_cst_5 (constant S_ .f32 0x3F000000#32),
    unary main_cst_5 main_v33 (broadcastInDim S4096x64 ![] bcast_S_S4096x64 : (⟨S_, .f32⟩ : BufTy).Contents (Elt F) → (⟨S4096x64, .f32⟩ : BufTy).Contents (Elt F)),
    binary main_v33 main_arg6 main_v34 (mulf : (⟨S4096x64, .f32⟩ : BufTy).Contents (Elt F) → (⟨S4096x64, .f32⟩ : BufTy).Contents (Elt F) → (⟨S4096x64, .f32⟩ : BufTy).Contents (Elt F)),
    binary main_v32 main_v34 main_v35 (addf : (⟨S4096x64, .f32⟩ : BufTy).Contents (Elt F) → (⟨S4096x64, .f32⟩ : BufTy).Contents (Elt F) → (⟨S4096x64, .f32⟩ : BufTy).Contents (Elt F)),
    reshape main_arg7 main_v36 rfl shapeCasts_S_S1x1,
    unary main_v36 main_v37 (broadcastInDim S4096x1 ![0, 1] bcast_S1x1_S4096x1_0_1 : (⟨S1x1, .f32⟩ : BufTy).Contents (Elt F) → (⟨S4096x1, .f32⟩ : BufTy).Contents (Elt F)),
    binary main_v35 main_v37 main_v38 ((fun a b => concatenate S4096x65 1 [⟨S4096x64, a⟩, ⟨S4096x1, b⟩] concatenates_S4096x64_S4096x1_S4096x65_d1) : (⟨S4096x64, .f32⟩ : BufTy).Contents (Elt F) → (⟨S4096x1, .f32⟩ : BufTy).Contents (Elt F) → (⟨S4096x65, .f32⟩ : BufTy).Contents (Elt F)) ]

set_option maxRecDepth 8192 in
theorem main_eq (c : Dev nD) : main (F := F) c = seq ops := rfl
theorem ops_split : (ops : List (HloOp τ sig (Elt F))) = opsA ++ opsB := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., binary_bufs_sub .., reshape_bufs_sub .., unary_bufs_sub .., binary_bufs_sub ..⟩

/-- No operation of the first stretch writes argument 6. -/
theorem keepsA_arg6 (V : Valuation τ sig (Elt F)) :
    after (opsA (F := F)) V (Proc.devRef .tc main_arg6) = V (Proc.devRef .tc main_arg6) :=
  after_of_forall_not_mem (b := Proc.devRef .tc main_arg6) _ _ (List.forall_iff_forall_mem.mp (by
    simp only [opsA, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))

/-- No operation of the first stretch writes argument 7. -/
theorem keepsA_arg7 (V : Valuation τ sig (Elt F)) :
    after (opsA (F := F)) V (Proc.devRef .tc main_arg7) = V (Proc.devRef .tc main_arg7) :=
  after_of_forall_not_mem (b := Proc.devRef .tc main_arg7) _ _ (List.forall_iff_forall_mem.mp (by
    simp only [opsA, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))

/-- No operation of the first stretch writes argument 8. -/
theorem keepsA_arg8 (V : Valuation τ sig (Elt F)) :
    after (opsA (F := F)) V (Proc.devRef .tc main_arg8) = V (Proc.devRef .tc main_arg8) :=
  after_of_forall_not_mem (b := Proc.devRef .tc main_arg8) _ _ (List.forall_iff_forall_mem.mp (by
    simp only [opsA, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))

/-- No operation of the first stretch writes argument 9. -/
theorem keepsA_arg9 (V : Valuation τ sig (Elt F)) :
    after (opsA (F := F)) V (Proc.devRef .tc main_arg9) = V (Proc.devRef .tc main_arg9) :=
  after_of_forall_not_mem (b := Proc.devRef .tc main_arg9) _ _ (List.forall_iff_forall_mem.mp (by
    simp only [opsA, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))

/-- No operation of the program writes argument 0. -/
theorem keeps_arg0 (V : Valuation τ sig (Elt F)) :
    after (ops (F := F)) V (Proc.devRef .tc main_arg0) = V (Proc.devRef .tc main_arg0) :=
  after_of_forall_not_mem (b := Proc.devRef .tc main_arg0) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))

/-- No operation of the program writes argument 1. -/
theorem keeps_arg1 (V : Valuation τ sig (Elt F)) :
    after (ops (F := F)) V (Proc.devRef .tc main_arg1) = V (Proc.devRef .tc main_arg1) :=
  after_of_forall_not_mem (b := Proc.devRef .tc main_arg1) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))

/-- No operation of the program writes argument 2. -/
theorem keeps_arg2 (V : Valuation τ sig (Elt F)) :
    after (ops (F := F)) V (Proc.devRef .tc main_arg2) = V (Proc.devRef .tc main_arg2) :=
  after_of_forall_not_mem (b := Proc.devRef .tc main_arg2) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))

/-- No operation of the program writes argument 3. -/
theorem keeps_arg3 (V : Valuation τ sig (Elt F)) :
    after (ops (F := F)) V (Proc.devRef .tc main_arg3) = V (Proc.devRef .tc main_arg3) :=
  after_of_forall_not_mem (b := Proc.devRef .tc main_arg3) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))

/-- No operation of the program writes argument 4. -/
theorem keeps_arg4 (V : Valuation τ sig (Elt F)) :
    after (ops (F := F)) V (Proc.devRef .tc main_arg4) = V (Proc.devRef .tc main_arg4) :=
  after_of_forall_not_mem (b := Proc.devRef .tc main_arg4) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))

/-- No operation of the program writes argument 5. -/
theorem keeps_arg5 (V : Valuation τ sig (Elt F)) :
    after (ops (F := F)) V (Proc.devRef .tc main_arg5) = V (Proc.devRef .tc main_arg5) :=
  after_of_forall_not_mem (b := Proc.devRef .tc main_arg5) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))

/-- No operation of the program writes argument 6. -/
theorem keeps_arg6 (V : Valuation τ sig (Elt F)) :
    after (ops (F := F)) V (Proc.devRef .tc main_arg6) = V (Proc.devRef .tc main_arg6) :=
  after_of_forall_not_mem (b := Proc.devRef .tc main_arg6) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))

/-- No operation of the program writes argument 7. -/
theorem keeps_arg7 (V : Valuation τ sig (Elt F)) :
    after (ops (F := F)) V (Proc.devRef .tc main_arg7) = V (Proc.devRef .tc main_arg7) :=
  after_of_forall_not_mem (b := Proc.devRef .tc main_arg7) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))

/-- No operation of the program writes argument 8. -/
theorem keeps_arg8 (V : Valuation τ sig (Elt F)) :
    after (ops (F := F)) V (Proc.devRef .tc main_arg8) = V (Proc.devRef .tc main_arg8) :=
  after_of_forall_not_mem (b := Proc.devRef .tc main_arg8) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))

/-- No operation of the program writes argument 9. -/
theorem keeps_arg9 (V : Valuation τ sig (Elt F)) :
    after (ops (F := F)) V (Proc.devRef .tc main_arg9) = V (Proc.devRef .tc main_arg9) :=
  after_of_forall_not_mem (b := Proc.devRef .tc main_arg9) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))

variable (m : (ℓ : Loc nD τ sig) → Buf (Elt Ideal) ℓ)

/-- The feature matrix of the argument arrays. -/
abbrev argFeatures (c : Dev nD) : S131072x1536.Idx → EReal :=
  features gather_S4096x768_S131072x1_S131072x768_1_0_n_n_0_1_1768 bcast_S_S131072 bcast_S131072_S131072x1_0
        concatenates_S131072x768_S131072x768_S131072x1536_d1
    (m ((c : Thread nD τ).loc main_arg0)) (m ((c : Thread nD τ).loc main_arg1)) (m ((c : Thread nD τ).loc main_arg8))

/-- The result matrix of the argument arrays, with the column of scores as the reference composes it. -/
abbrev result (c : Dev nD) : S4096x65.Idx → EReal :=
  padded scatter_S4096x64_S131072x2_S131072_n_01_01_1 bcast_S_S4096x64 bcast_S_S131072 bcast_S131072_S131072x1_0
      concatenates_S131072x1_S131072x1_S131072x2_d1 shapeCasts_S131072x1_S131072 shapeCasts_S_S1x1
      bcast_S1x1_S4096x1_0_1 concatenates_S4096x64_S4096x1_S4096x65_d1
    (refScores (argFeatures m c) (m ((c : Thread nD τ).loc main_arg2)) (m ((c : Thread nD τ).loc main_arg3))
      (m ((c : Thread nD τ).loc main_arg4)) (m ((c : Thread nD τ).loc main_arg5)))
    (m ((c : Thread nD τ).loc main_arg6)) (m ((c : Thread nD τ).loc main_arg7))
    (m ((c : Thread nD τ).loc main_arg8)) (m ((c : Thread nD τ).loc main_arg9))

set_option maxHeartbeats 4000000 in
/-- After the first stretch the scores buffer holds the reference's column of scores of the arguments. -/
theorem head_scores (c : Dev nD) :
    after (opsA (F := Ideal)) (launchContents m c) (Proc.devRef .tc main_v16)
      = refScores (argFeatures m c) (m ((c : Thread nD τ).loc main_arg2)) (m ((c : Thread nD τ).loc main_arg3))
          (m ((c : Thread nD τ).loc main_arg4)) (m ((c : Thread nD τ).loc main_arg5)) := by
  after_results
  rfl

set_option maxHeartbeats 4000000 in
/-- The second stretch, from any contents of the buffers it reads: the result matrix of the scores buffer, the prior,
    the bias and the two index vectors. -/
theorem tail_value (Wv : Valuation τ sig (Elt Ideal)) :
    after (opsB (F := Ideal)) Wv (Proc.devRef .tc main_v38)
      = padded scatter_S4096x64_S131072x2_S131072_n_01_01_1 bcast_S_S4096x64 bcast_S_S131072 bcast_S131072_S131072x1_0
      concatenates_S131072x1_S131072x1_S131072x2_d1 shapeCasts_S131072x1_S131072 shapeCasts_S_S1x1
      bcast_S1x1_S4096x1_0_1 concatenates_S4096x64_S4096x1_S4096x65_d1
          (Wv (Proc.devRef .tc main_v16)) (Wv (Proc.devRef .tc main_arg6)) (Wv (Proc.devRef .tc main_arg7))
          (Wv (Proc.devRef .tc main_arg8)) (Wv (Proc.devRef .tc main_arg9)) := by
  after_results
  rfl

/-- What the program leaves in its result buffer. -/
theorem result_value (c : Dev nD) :
    after (ops (F := Ideal)) (launchContents m c) (Proc.devRef .tc main_v38) = result m c := by
  rw [ops_split, after_append, tail_value, head_scores, keepsA_arg6, keepsA_arg7, keepsA_arg8, keepsA_arg9]

/-- Every weakly fair execution of the reference terminates with the result matrix of the arguments in the result buffer
    and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v38) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v38).trans (result_value m c),
      (h c main_arg0).trans (keeps_arg0 _),
      (h c main_arg1).trans (keeps_arg1 _),
      (h c main_arg2).trans (keeps_arg2 _),
      (h c main_arg3).trans (keeps_arg3 _),
      (h c main_arg4).trans (keeps_arg4 _),
      (h c main_arg5).trans (keeps_arg5 _),
      (h c main_arg6).trans (keeps_arg6 _),
      (h c main_arg7).trans (keeps_arg7 _),
      (h c main_arg8).trans (keeps_arg8 _),
      (h c main_arg9).trans (keeps_arg9 _)⟩)
    (run_seq scopedRefs_eq scopedSems_eq defs main (fun _ => ops) main_eq (fun _ => ops_sub) m ρ)

end Cert.ReferenceIdeal.Run

end
-- ==== Proof.lean ====
/-
  The reranker's scoring kernel against its reference.

  Both programs score 131072 mention–candidate pairs.  A pair's features are the embedding of its mention (selected by
  the pair's mention index) followed by the embedding of its candidate; its score is a two-layer network of those 1536
  features: 768 rectified hidden units and one output.  The scores are then scattered into a 4096 × 64 matrix at
  (mention, column) of each pair, half the prior is added, and a bias column is appended.

  The kernel program computes the scores in a grid of 64 blocks of 2048 pairs with the features and the weights
  narrowed to a short float format and both products on the matrix unit; the reference computes them with two host
  products over all pairs at once.  On the extended reals a narrowing is the identity and each product is the plain sum
  over its contracted axis, so both compute, for every pair, the same expression of the same arrays, and the operations
  before and after the scoring are the same in both programs.  No algebraic law beyond that is used, and the precondition
  is not needed.

  The three frames: the kernel program's two are its generated frame certificates; the reference's is its run with
  the result dropped.  The idealization rewrote nothing, so there is nothing to preserve.
-/
import proofs.«123617_j89232240542409_1_alg».proof.Defs
import proofs.«123617_j89232240542409_1_alg».proof.Proof.Gen.Kernel
import proofs.«123617_j89232240542409_1_alg».proof.Proof.Gen.Kernel.Skeleton
import proofs.«123617_j89232240542409_1_alg».proof.Proof.Gen.Kernel.Launch
import proofs.«123617_j89232240542409_1_alg».proof.Proof.Gen.Kernel.Points
import proofs.«123617_j89232240542409_1_alg».proof.Proof.Gen.Kernel.Frame
import proofs.«123617_j89232240542409_1_alg».proof.Proof.Gen.KernelIdeal
import proofs.«123617_j89232240542409_1_alg».proof.Proof.Gen.KernelIdeal.Skeleton
import proofs.«123617_j89232240542409_1_alg».proof.Proof.Gen.KernelIdeal.Launch
import proofs.«123617_j89232240542409_1_alg».proof.Proof.Gen.KernelIdeal.Points
import proofs.«123617_j89232240542409_1_alg».proof.Proof.Gen.KernelIdeal.Frame
import proofs.«123617_j89232240542409_1_alg».proof.Proof.Gen.ReferenceIdeal
import proofs.«123617_j89232240542409_1_alg».proof.Proof.Gen.Pre_finite_inputs
import proofs.«123617_j89232240542409_1_alg».proof.Proof.KernelValue
import proofs.«123617_j89232240542409_1_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Run.run m ρ)

/-- The idealization rewrote no operation. -/
theorem preserves : Cert.preserves_Kernel_KernelIdeal := trivial

/-- The two programs' gather records hold the same dimension numbers. -/
theorem gather_eq : Cert.KernelIdeal.gather_S4096x768_S131072x1_S131072x768_1_0_n_n_0_1_1768
    = Cert.ReferenceIdeal.gather_S4096x768_S131072x1_S131072x768_1_0_n_n_0_1_1768 := rfl

/-- The two programs' scatter records hold the same dimension numbers. -/
theorem scatter_eq : Cert.KernelIdeal.scatter_S4096x64_S131072x2_S131072_n_01_01_1
    = Cert.ReferenceIdeal.scatter_S4096x64_S131072x2_S131072_n_01_01_1 := rfl

/-- From memories that agree on the arguments both programs end with the result matrix of the pair scores of the
    arguments: the kernel program's column of scores is that of the arguments block by block, the reference's entry by
    entry, and the operations around the scoring are the same. -/
theorem algebraic : Cert.algebraic_KernelIdeal_ReferenceIdeal := by
  intro m ρ m' ρ' _ hagree
  refine ⟨fun c => Cert.KernelIdeal.Score.result m c, Cert.KernelIdeal.Score.run m ρ, ?_⟩
  refine (θ_run Cert.ReferenceIdeal.defs _ _).mono (fun _ h c => ⟨(h c).1.trans ?_, (h c).2⟩)
    (Cert.ReferenceIdeal.Run.run m' ρ')
  obtain ⟨a0, a1, a2, a3, a4, a5, a6, a7, a8, a9⟩ := hagree c
  show Cert.ReferenceIdeal.Run.result m' c = Cert.KernelIdeal.Score.result m c
  unfold Cert.ReferenceIdeal.Run.result Cert.ReferenceIdeal.Run.argFeatures Cert.KernelIdeal.Score.result
    Cert.KernelIdeal.Score.argScores
  rw [Cert.ReferenceIdeal.Score.refScores_eq, a0, a1, a2, a3, a4, a5, a6, a7, a8, a9, gather_eq, scatter_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
